-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S64x16 .f32) (main_arg7 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S5000x64 : Shape := ⟨2, ![5000, 64]⟩
abbrev S5000x1 : Shape := ⟨2, ![5000, 1]⟩
abbrev S1x64 : Shape := ⟨2, ![1, 64]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 86
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S1x16, .f32⟩
  | .hbm, ⟨85, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S5000x64, .f32⟩
  | .local _ .vmem, ⟨10, _⟩ => ⟨S5000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S5000x64, .f32⟩
  | .local _ .vmem, ⟨26, _⟩ => ⟨S5000x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x16, .f32⟩
  | .local _ .vmem, ⟨35, _⟩ => ⟨S1x16, .f32⟩
  | .local _ .vmem, ⟨36, _⟩ => ⟨S10000x16, .f32⟩
  | .local _ .vmem, ⟨37, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![340], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![340], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S1700000_S1700000x1 : S1700000.ShapeCasts S1700000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1700000x64.size a
  hwx1_0 : ∀ i : grid1.Coords, EltTy.bits .f32 = 32 ∨ (Rect.block (s := S1700000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1700000x1.size a
  hwx1_1 : ∀ i : grid1.Coords, EltTy.bits .f32 = 32 ∨ (Rect.block (s := S1700000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S1700000x64.size a
  hwx1_2 : ∀ i : grid1.Coords, EltTy.bits .f32 = 32 ∨ (Rect.block (s := S1700000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S1700000x64.size a
  hwx4_0 : ∀ i : grid4.Coords, EltTy.bits .f32 = 32 ∨ (Rect.block (s := S1700000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S1700000x1.size a
  hwx4_1 : ∀ i : grid4.Coords, EltTy.bits .f32 = 32 ∨ (Rect.block (s := S1700000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S1700000x64.size a
  hwx4_2 : ∀ i : grid4.Coords, EltTy.bits .f32 = 32 ∨ (Rect.block (s := S1700000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x16.size a ≤ S64x16.size a
  hwx6_1 : ∀ i : grid6.Coords, EltTy.bits .f32 = 32 ∨ (Rect.block (s := S64x16) S64x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x16.size a ≤ S1x16.size a
  hwx6_2 : ∀ i : grid6.Coords, EltTy.bits .f32 = 32 ∨ (Rect.block (s := S1x16) S1x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x16.size a ≤ S100000x16.size a
  hwx6_3 : ∀ i : grid6.Coords, EltTy.bits .f32 = 32 ∨ (Rect.block (s := S100000x16) S10000x16.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v59) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S1x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v61) S10000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x16, .f32⟩
  | .hbm, ⟨92, _⟩ => ⟨S1x16, .f32⟩
  | .hbm, ⟨93, _⟩ => ⟨S100000x16, .f32⟩
  | .hbm, ⟨94, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The idealized kernel's run with its result named.

  The program is seven grid regions among stretches of host operations. Its run is the launch over those fifteen
  segments; the buffer contents after the last one are the fold `W15`: a host stretch applies its operations, a region
  leaves each of its arrays at what its blocks' write-backs leave and every other buffer as it was. Every weakly fair
  execution terminates, and the final memory holds every unscoped buffer at that fold: here the result array is read at
  it, beside the eight argument arrays, which the fold walks back to their launch contents.
-/
import proofs.«113802_j19069654794550_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates; the result array ends at the last boundary's
    contents and the argument arrays as launched. -/
theorem run_result : θ_run defs (onTc (τ := τ) (main (F := F))) ⟨m, fun _ => 0, ρ⟩ (fun r => ∀ c : Dev nD,
      r.2.mem ((c.tc : Thread nD τ).loc main_v61) = W15 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v61 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c)⟩)

end Cert.KernelIdeal.KernelRun

end
-- ==== Proof.Assembly.lean ====
/-
  The five claims of the certificate, assembled.

  The word-level kernel and its idealization run by their frames; the reference runs by its host operations read in order,
  which also names its result: the last stage's function of the eight argument arrays. The idealized kernel's run leaves
  its result array at the contents of the last of its fifteen segment boundaries. So the two programs, started from
  memories that agree on the arguments, end with equal results as soon as that last boundary's result array is the
  reference's last stage of the same arguments: `algebraic_of` takes exactly that equation as its hypothesis and
  returns the claim, with the common result array as the witness.
-/
import proofs.«113802_j19069654794550_2_alg».proof.Defs
import proofs.«113802_j19069654794550_2_alg».proof.Proof.Gen.Kernel.Frame
import proofs.«113802_j19069654794550_2_alg».proof.Proof.Gen.KernelIdeal.Frame
import proofs.«113802_j19069654794550_2_alg».proof.Proof.Gen.ReferenceIdeal
import proofs.«113802_j19069654794550_2_alg».proof.Proof.Gen.Pre_finite_inputs
import proofs.«113802_j19069654794550_2_alg».proof.Proof.KernelRun
import proofs.«113802_j19069654794550_2_alg».proof.Proof.RefRunP
import proofs.«113802_j19069654794550_2_alg».proof.Proof.RefReadP

noncomputable section

open Idealize.ShloMosaic Idealize.ShloMosaic.TcCoe Idealize.SL.Sem

namespace Cert.Proof.Assembly

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel. -/
theorem preserves : Cert.preserves_Kernel_KernelIdeal := trivial

/-- If, on every device, the idealized kernel's result array at its last segment boundary is the reference's last
    stage of the kernel's eight argument arrays, then from memories agreeing on the arguments both programs run, end with
    that one array as their results, and leave their arguments unchanged. -/
theorem algebraic_of
    (hres : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W15 m ρ c (Proc.devRef .tc Cert.KernelIdeal.main_v61)
        = Cert.ReferenceIdeal.ReadP.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) :
    Cert.algebraic_KernelIdeal_ReferenceIdeal := by
  intro m ρ m' ρ' _ hagree
  refine ⟨fun c => Cert.ReferenceIdeal.ReadP.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (hres m ρ c), (h c).2⟩)
      (Cert.KernelIdeal.KernelRun.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v68_eq, h0, h1, h2, h3, h4, h5, h6, h7]

end Cert.Proof.Assembly

end
-- ==== Proof.KernelFold.lean ====
/-
  The kernel program's buffer contents from one segment boundary to the next: what each segment leaves alone.

  The program's run is a fold through fifteen segments. A stretch of host operations rewrites exactly the buffers its
  operations produce; a grid region rewrites exactly its windows' arrays. So a buffer that a segment neither produces nor
  has among its windows' arrays holds after the segment what it held before it. Stated once per boundary, for any
  buffer, the side condition a decidable fact about the buffer's name: an argument array, or an index vector computed
  early and read again two layers later, is then walked back boundary by boundary to where it was produced.
-/
import proofs.«113802_j19069654794550_2_alg».proof.Proof.Gen.KernelIdeal.Frame

noncomputable section

namespace Cert.KernelIdeal.Fold

open Cert.KernelIdeal Cert.KernelIdeal.Gen
open Idealize.ShloMosaic Idealize.ShloMosaic.TcCoe Idealize.SL.Sem

variable {F : FTy → Type} [FloatOps F]

/-! ## The buffers each host stretch produces -/

/-- The buffers `hostOps0`'s operations produce. -/
abbrev hostOps0_produced : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_produced.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps0_1`'s operations produce. -/
abbrev hostOps0_1_produced : List (Ref sig .tc) := [main_call0_v0, main_call0_v1, main_v14]
theorem hostOps0_1_writes : (hostOps0_1 : List (HloOp τ sig (Elt F))).Forall fun op => op.writes ⊆ (hostOps0_1_produced.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps0_2`'s operations produce. -/
abbrev hostOps0_2_produced : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_produced.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps1`'s operations produce. -/
abbrev hostOps1_produced : List (Ref sig .tc) := [main_c_6, main_v31, main_v32, main_c_7, main_v33, main_v34, main_v35, main_v36, main_v37, main_v38]
theorem hostOps1_writes : (hostOps1 : List (HloOp τ sig (Elt F))).Forall fun op => op.writes ⊆ (hostOps1_produced.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps2`'s operations produce. -/
abbrev hostOps2_produced : List (Ref sig .tc) := [main_cst_8, main_v40, main_v41, main_v42, main_v43]
theorem hostOps2_writes : (hostOps2 : List (HloOp τ sig (Elt F))).Forall fun op => op.writes ⊆ (hostOps2_produced.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps4`'s operations produce. -/
abbrev hostOps4_produced : List (Ref sig .tc) := [main_c_9, main_v46, main_v47, main_c_10, main_v48, main_v49, main_v50, main_v51, main_v52, main_v53]
theorem hostOps4_writes : (hostOps4 : List (HloOp τ sig (Elt F))).Forall fun op => op.writes ⊆ (hostOps4_produced.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps5`'s operations produce. -/
abbrev hostOps5_produced : List (Ref sig .tc) := [main_cst_11, main_v55, main_v56, main_v57, main_v58]
theorem hostOps5_writes : (hostOps5 : List (HloOp τ sig (Elt F))).Forall fun op => op.writes ⊆ (hostOps5_produced.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps6`'s operations produce. -/
abbrev hostOps6_produced : List (Ref sig .tc) := [main_v60]
theorem hostOps6_writes : (hostOps6 : List (HloOp τ sig (Elt F))).Forall fun op => op.writes ⊆ (hostOps6_produced.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt F) ℓ) (ρ : Dev nD → PrngReg) (c : Dev nD) (r : Ref sig .tc)

/-! ## What each segment leaves alone -/

theorem keep1 (h : r ∉ hostOps0_produced) : W1 m ρ c (Proc.devRef .tc r) = W0 m ρ c (Proc.devRef .tc r) :=
  StableHlo.after_of_writes_sub hostOps0 _ hostOps0_writes h
theorem keep2 (h : r ∉ hostOps0_1_produced) : W2 m ρ c (Proc.devRef .tc r) = W1 m ρ c (Proc.devRef .tc r) :=
  StableHlo.after_of_writes_sub hostOps0_1 _ hostOps0_1_writes h
theorem keep3 (h : r ∉ hostOps0_2_produced) : W3 m ρ c (Proc.devRef .tc r) = W2 m ρ c (Proc.devRef .tc r) :=
  StableHlo.after_of_writes_sub hostOps0_2 _ hostOps0_2_writes h
theorem keep4 (h : ∀ w, Pipeline.arrRef spec0 w ≠ r) : W4 m ρ c (Proc.devRef .tc r) = W3 m ρ c (Proc.devRef .tc r) :=
  W4_of_ne m ρ c r h
theorem keep5 (h : r ∉ hostOps1_produced) : W5 m ρ c (Proc.devRef .tc r) = W4 m ρ c (Proc.devRef .tc r) :=
  StableHlo.after_of_writes_sub hostOps1 _ hostOps1_writes h
theorem keep6 (h : ∀ w, Pipeline.arrRef spec1 w ≠ r) : W6 m ρ c (Proc.devRef .tc r) = W5 m ρ c (Proc.devRef .tc r) :=
  W6_of_ne m ρ c r h
theorem keep7 (h : r ∉ hostOps2_produced) : W7 m ρ c (Proc.devRef .tc r) = W6 m ρ c (Proc.devRef .tc r) :=
  StableHlo.after_of_writes_sub hostOps2 _ hostOps2_writes h
theorem keep8 (h : ∀ w, Pipeline.arrRef spec2 w ≠ r) : W8 m ρ c (Proc.devRef .tc r) = W7 m ρ c (Proc.devRef .tc r) :=
  W8_of_ne m ρ c r h
theorem keep9 (h : ∀ w, Pipeline.arrRef spec3 w ≠ r) : W9 m ρ c (Proc.devRef .tc r) = W8 m ρ c (Proc.devRef .tc r) :=
  W9_of_ne m ρ c r h
theorem keep10 (h : r ∉ hostOps4_produced) : W10 m ρ c (Proc.devRef .tc r) = W9 m ρ c (Proc.devRef .tc r) :=
  StableHlo.after_of_writes_sub hostOps4 _ hostOps4_writes h
theorem keep11 (h : ∀ w, Pipeline.arrRef spec4 w ≠ r) : W11 m ρ c (Proc.devRef .tc r) = W10 m ρ c (Proc.devRef .tc r) :=
  W11_of_ne m ρ c r h
theorem keep12 (h : r ∉ hostOps5_produced) : W12 m ρ c (Proc.devRef .tc r) = W11 m ρ c (Proc.devRef .tc r) :=
  StableHlo.after_of_writes_sub hostOps5 _ hostOps5_writes h
theorem keep13 (h : ∀ w, Pipeline.arrRef spec5 w ≠ r) : W13 m ρ c (Proc.devRef .tc r) = W12 m ρ c (Proc.devRef .tc r) :=
  W13_of_ne m ρ c r h
theorem keep14 (h : r ∉ hostOps6_produced) : W14 m ρ c (Proc.devRef .tc r) = W13 m ρ c (Proc.devRef .tc r) :=
  StableHlo.after_of_writes_sub hostOps6 _ hostOps6_writes h
theorem keep15 (h : ∀ w, Pipeline.arrRef spec6 w ≠ r) : W15 m ρ c (Proc.devRef .tc r) = W14 m ρ c (Proc.devRef .tc r) :=
  W15_of_ne m ρ c r h

/-! ## Walking a buffer back several boundaries at once -/

/-- A buffer none of the three opening stretches produces holds its launch contents at the first region's entry. -/
theorem launch_at3 (h1 : r ∉ hostOps0_produced) (h2 : r ∉ hostOps0_1_produced) (h3 : r ∉ hostOps0_2_produced) :
    W3 m ρ c (Proc.devRef .tc r) = m ((c : Thread nD τ).loc r) :=
  (keep3 m ρ c r h3).trans ((keep2 m ρ c r h2).trans ((keep1 m ρ c r h1).trans rfl))

/-- From the second region's exit back to the first region's entry. -/
theorem back6 (h4 : ∀ w, Pipeline.arrRef spec0 w ≠ r) (h5 : r ∉ hostOps1_produced) (h6 : ∀ w, Pipeline.arrRef spec1 w ≠ r) :
    W6 m ρ c (Proc.devRef .tc r) = W3 m ρ c (Proc.devRef .tc r) :=
  (keep6 m ρ c r h6).trans ((keep5 m ρ c r h5).trans (keep4 m ρ c r h4))

/-- From the third region's exit back to the second region's exit. -/
theorem back8 (h7 : r ∉ hostOps2_produced) (h8 : ∀ w, Pipeline.arrRef spec2 w ≠ r) :
    W8 m ρ c (Proc.devRef .tc r) = W6 m ρ c (Proc.devRef .tc r) :=
  (keep8 m ρ c r h8).trans (keep7 m ρ c r h7)

/-- From the fifth region's exit back to the fourth region's exit. -/
theorem back11 (h10 : r ∉ hostOps4_produced) (h11 : ∀ w, Pipeline.arrRef spec4 w ≠ r) :
    W11 m ρ c (Proc.devRef .tc r) = W9 m ρ c (Proc.devRef .tc r) :=
  (keep11 m ρ c r h11).trans (keep10 m ρ c r h10)

/-- From the sixth region's exit back to the fifth region's exit. -/
theorem back13 (h12 : r ∉ hostOps5_produced) (h13 : ∀ w, Pipeline.arrRef spec5 w ≠ r) :
    W13 m ρ c (Proc.devRef .tc r) = W11 m ρ c (Proc.devRef .tc r) :=
  (keep13 m ρ c r h13).trans (keep12 m ρ c r h12)

end Cert.KernelIdeal.Fold

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.ScaleRegion.lean ====
/-
  The two scale stages of the graph convolution, as whole arrays.

  Each edge e carries a gathered feature row A(e, ·) of 64 entries and one factor s(e); the stage multiplies the
  row by the factor. The rows are processed 5000 at a time: block t holds rows 5000·t … 5000·t + 4999 of the
  table and the same rows of the factor column, and every entry it writes is A(e, q) · s(e, 0) for the row e of the
  table the entry belongs to. The 340 blocks tile the 1700000 rows, so after the last block the output table is, entry
  by entry, the table times the factor column spread along the rows — the host's product of the table with the column
  broadcast to the table's shape.
-/
import proofs.«113802_j19069654794550_2_alg».proof.Proof.Gen.KernelIdeal.Frame
import proofs.«113802_j19069654794550_2_alg».proof.ReferenceIdeal
import proofs.«113802_j19069654794550_2_alg».proof.Proof.LibColumnLayout
import Idealize.ShloMosaic.Lib.ValueIdx
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.LibColumnLayout
open Idealize.ShloMosaic.Pipeline (Dat)

variable [Cert.ReferenceIdeal.Facts₀]

/-- The origin of a rank-2 rectangle. -/
theorem scale_origin : (![0, 0] : Fin 2 → Nat) = fun _ => 0 := funext fun a => by fin_cases a <;> rfl

/-- The table times the factor column spread along the rows, as the host spells it. -/
abbrev scaledTable (A : FVec Ideal Cert.ReferenceIdeal.S1700000x64 .f32) (s : FVec Ideal Cert.ReferenceIdeal.S1700000x1 .f32) :
    FVec Ideal Cert.ReferenceIdeal.S1700000x64 .f32 :=
  mulf A (broadcastInDim Cert.ReferenceIdeal.S1700000x64 ![0, 1] Cert.ReferenceIdeal.Facts₀.bcast_S1700000x1_S1700000x64_0_1 s)

/-- Its entry (e, q) is the table's entry times row e's factor. -/
theorem scaledTable_apply (A : FVec Ideal Cert.ReferenceIdeal.S1700000x64 .f32) (s : FVec Ideal Cert.ReferenceIdeal.S1700000x1 .f32)
    (e : Fin 1700000) (q : Fin 64) : scaledTable A s (ix2 e q) = A (ix2 e q) * s (ix2 e (0 : Fin 1)) := by
  unfold scaledTable
  rw [mulf_apply, broadcastInDim_a1_ab_apply]

/-- One block of the stage: entry (p, q) is the block's entry times row p's factor. -/
theorem scale_block_apply (x0 : FVec Ideal S5000x64 .f32) (x1 : FVec Ideal S5000x1 .f32) (p : Fin 5000) (q : Fin 64) :
    k1_pay1 (F := Ideal) x0 x1 (ix2 p q) = x0 (ix2 p q) * x1 (ix2 p (0 : Fin 1)) := by
  unfold k1_pay1
  show mulf (shapeCast S5000x64 x0 shapeCasts_S5000x64_S5000x64)
      (broadcastTo S5000x64 (shapeCast S5000x1 x1 shapeCasts_S5000x1_S5000x1) broadcasts_S5000x1_S5000x64) (ix2 p q) = _
  rw [mulf_apply, shapeCast_self, shapeCast_self, broadcastTo_a1_ab_apply]

/-! ## The first scale stage -/

/-- Block t of each of the stage's three windows is block row t, column block 0. -/
theorem scale1_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled table. -/
theorem scale1_flushed (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (scaledTable (V c main_v37) (V c main_v38)) := by
  show (cfg1.win 2).cut (grid1.coords t) ((dat1 (F := Ideal) V c).after 2 t) = _
  rw [after1_2]
  unfold out1_2
  rw [View.canon_unit_zero scale_origin]
  simp only [View.ld_unit_zero (S := S5000x64) scale_origin, View.ld_unit_zero (S := S5000x1) scale_origin]
  obtain ⟨e0, e1, e2, e3, e4, e5⟩ := scale1_index t
  have ht : t.val < 340 := by
    have h1 : t.val < grid1.N := t.isLt
    have h2 : grid1.N = 340 := N_1
    omega
  funext j
  obtain ⟨p, q, rfl⟩ : ∃ (p : Fin 5000) (q : Fin 64), j = ix2 p q := ⟨j 0, j 1, eq_ix2 j⟩
  have hp : p.val < 5000 := p.isLt
  let e : Fin 1700000 := ⟨t.val * 5000 + p.val, by omega⟩
  show k1_pay1 (F := Ideal) (iblk1 V c 0 t) (iblk1 V c 1 t) (ix2 p q)
      = scaledTable (V c main_v37) (V c main_v38) (((cfg1.win 2).blk t).view.emb (ix2 p q))
  rw [scale_block_apply]
  have h0 : ((cfg1.win 0).blk t).view.emb (ix2 p q) = ix2 e q := by
    funext a; apply Fin.ext
    match a with
    | ⟨0, _⟩ => show win1_0.index t (0 : Fin 2) * 5000 + 1 * p.val = t.val * 5000 + p.val; omega
    | ⟨1, _⟩ => show win1_0.index t (1 : Fin 2) * 64 + 1 * q.val = q.val; omega
  have h1 : ((cfg1.win 1).blk t).view.emb (ix2 p (0 : Fin 1)) = ix2 e (0 : Fin 1) := by
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  have h2 : ((cfg1.win 2).blk t).view.emb (ix2 p q) = ix2 e q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  rw [h2, scaledTable_apply]
  refine congrArg₂ (· * ·) ?_ ?_
  · show V c main_v37 (((cfg1.win 0).blk t).view.emb (ix2 p q)) = _
    rw [h0]
  · show V c main_v38 (((cfg1.win 1).blk t).view.emb (ix2 p (0 : Fin 1))) = _
    rw [h1]

/-- An entry of the table is in point t's block iff each coordinate is in the block's range on its axis. -/
theorem scale1_mem_blk (t : Fin cfg1.N) (i : S1700000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v39).slice (win1_2.rect t)).set ↔ _
  rw [View.set_slice_whole, Rect.mem_set_unit]
  exact Iff.rfl

/-- Row e of the table lies in block e / 5000. -/
theorem scale1_cover (i : S1700000x64.Idx) :
    ∃ t : Fin cfg1.N, (cfg1.win 2).flush t = true ∧ i ∈ ((cfg1.win 2).blk t).view.set := by
  have hi0 : (i 0).val < 1700000 := (i 0).isLt
  have hi1 : (i 1).val < 64 := (i 1).isLt
  let t : Fin cfg1.N := ⟨(i 0).val / 5000, by rw [show cfg1.N = grid1.N from rfl, N_1]; omega⟩
  obtain ⟨e0, e1, e2, e3, e4, e5⟩ := scale1_index t
  have ht : t.val = (i 0).val / 5000 := rfl
  refine ⟨t, flush1_2 t, ?_⟩
  rw [scale1_mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE FIRST SCALE STAGE: after its 340 blocks the output table is the gathered table times the factor column. -/
theorem region1_array (V : (c : Dev nD) → (b : Ref sig .tc) → Buf (Elt Ideal) ((c : Thread nD τ).loc b)) (c : Dev nD) :
    (dat1 (F := Ideal) V c).arrAt 2 cfg1.N = scaledTable (V c main_v37) (V c main_v38) :=
  (dat1 (F := Ideal) V c).arrAt_eq_of_cover 2 (scaledTable (V c main_v37) (V c main_v38))
    (fun t _ => scale1_flushed V c t) scale1_cover

end Cert.KernelIdeal.RegionValue

end
-- ==== Proof.ScaleRegion4.lean ====
/-
  The second scale stage of the graph convolution, as a whole array.

  It is the first stage's computation on the second layer's tables: each edge e carries a gathered row A(e, ·) of 64
  entries and one factor s(e), and the stage multiplies the row by the factor, 5000 rows at a time. Block t holds rows
  5000·t … 5000·t + 4999 of the table and of the factor column; entry (p, q) of what it writes is
  A(5000·t + p, q) · s(5000·t + p, 0). Row e lies in block e / 5000, so the 340 blocks tile the 1700000 rows and the
  output table is the table times the factor column spread along the rows.
-/
import proofs.«113802_j19069654794550_2_alg».proof.Proof.ScaleRegion

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.LibColumnLayout
open Idealize.ShloMosaic.Pipeline (Dat)

variable [Cert.ReferenceIdeal.Facts₀]

/-- One block of the second stage: entry (p, q) is the block's entry times row p's factor. -/
theorem scale4_block_apply (x0 : FVec Ideal S5000x64 .f32) (x1 : FVec Ideal S5000x1 .f32) (p : Fin 5000) (q : Fin 64) :
    k4_pay1 (F := Ideal) x0 x1 (ix2 p q) = x0 (ix2 p q) * x1 (ix2 p (0 : Fin 1)) := by
  unfold k4_pay1
  show mulf (shapeCast S5000x64 x0 shapeCasts_S5000x64_S5000x64)
      (broadcastTo S5000x64 (shapeCast S5000x1 x1 shapeCasts_S5000x1_S5000x1) broadcasts_S5000x1_S5000x64) (ix2 p q) = _
  rw [mulf_apply, shapeCast_self, shapeCast_self, broadcastTo_a1_ab_apply]

/-! ## The second scale stage -/

/-- Block t of each of the stage's three windows is block row t, column block 0. -/
theorem scale4_index : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the scaled table. -/
theorem scale4_flushed (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal) (scaledTable (V c main_v52) (V c main_v53)) := by
  show (cfg4.win 2).cut (grid4.coords t) ((dat4 (F := Ideal) V c).after 2 t) = _
  rw [after4_2]
  unfold out4_2
  rw [View.canon_unit_zero scale_origin]
  simp only [View.ld_unit_zero (S := S5000x64) scale_origin, View.ld_unit_zero (S := S5000x1) scale_origin]
  obtain ⟨e0, e1, e2, e3, e4, e5⟩ := scale4_index t
  have ht : t.val < 340 := by
    have h1 : t.val < grid4.N := t.isLt
    have h2 : grid4.N = 340 := N_4
    omega
  funext j
  obtain ⟨p, q, rfl⟩ : ∃ (p : Fin 5000) (q : Fin 64), j = ix2 p q := ⟨j 0, j 1, eq_ix2 j⟩
  have hp : p.val < 5000 := p.isLt
  let e : Fin 1700000 := ⟨t.val * 5000 + p.val, by omega⟩
  show k4_pay1 (F := Ideal) (iblk4 V c 0 t) (iblk4 V c 1 t) (ix2 p q)
      = scaledTable (V c main_v52) (V c main_v53) (((cfg4.win 2).blk t).view.emb (ix2 p q))
  rw [scale4_block_apply]
  have h0 : ((cfg4.win 0).blk t).view.emb (ix2 p q) = ix2 e q := by
    funext a; apply Fin.ext
    match a with
    | ⟨0, _⟩ => show win4_0.index t (0 : Fin 2) * 5000 + 1 * p.val = t.val * 5000 + p.val; omega
    | ⟨1, _⟩ => show win4_0.index t (1 : Fin 2) * 64 + 1 * q.val = q.val; omega
  have h1 : ((cfg4.win 1).blk t).view.emb (ix2 p (0 : Fin 1)) = ix2 e (0 : Fin 1) := by
    funext a; apply Fin.ext
    match a with
    | ⟨0, _⟩ => show win4_1.index t (0 : Fin 2) * 5000 + 1 * p.val = t.val * 5000 + p.val; omega
    | ⟨1, _⟩ => show win4_1.index t (1 : Fin 2) * 1 + 1 * 0 = 0; omega
  have h2 : ((cfg4.win 2).blk t).view.emb (ix2 p q) = ix2 e q := by
    funext a; apply Fin.ext
    match a with
    | ⟨0, _⟩ => show win4_2.index t (0 : Fin 2) * 5000 + 1 * p.val = t.val * 5000 + p.val; omega
    | ⟨1, _⟩ => show win4_2.index t (1 : Fin 2) * 64 + 1 * q.val = q.val; omega
  rw [h2, scaledTable_apply]
  refine congrArg₂ (· * ·) ?_ ?_
  · show V c main_v52 (((cfg4.win 0).blk t).view.emb (ix2 p q)) = _
    rw [h0]
  · show V c main_v53 (((cfg4.win 1).blk t).view.emb (ix2 p (0 : Fin 1))) = _
    rw [h1]

/-- An entry of the table is in point t's block iff each coordinate is in the block's range on its axis. -/
theorem scale4_mem_blk (t : Fin cfg4.N) (i : S1700000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v54).slice (win4_2.rect t)).set ↔ _
  rw [View.set_slice_whole, Rect.mem_set_unit]
  exact Iff.rfl

/-- Row e of the table lies in block e / 5000. -/
theorem scale4_cover (i : S1700000x64.Idx) :
    ∃ t : Fin cfg4.N, (cfg4.win 2).flush t = true ∧ i ∈ ((cfg4.win 2).blk t).view.set := by
  have hi0 : (i 0).val < 1700000 := (i 0).isLt
  have hi1 : (i 1).val < 64 := (i 1).isLt
  let t : Fin cfg4.N := ⟨(i 0).val / 5000, by rw [show cfg4.N = grid4.N from rfl, N_4]; omega⟩
  obtain ⟨e0, e1, e2, e3, e4, e5⟩ := scale4_index t
  have ht : t.val = (i 0).val / 5000 := rfl
  refine ⟨t, flush4_2 t, ?_⟩
  rw [scale4_mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- THE SECOND SCALE STAGE: after its 340 blocks the output table is the second layer's gathered table times the
    factor column. -/
theorem region4_array (V : (c : Dev nD) → (b : Ref sig .tc) → Buf (Elt Ideal) ((c : Thread nD τ).loc b)) (c : Dev nD) :
    (dat4 (F := Ideal) V c).arrAt 2 cfg4.N = scaledTable (V c main_v52) (V c main_v53) :=
  (dat4 (F := Ideal) V c).arrAt_eq_of_cover 2 (scaledTable (V c main_v52) (V c main_v53))
    (fun t _ => scale4_flushed V c t) scale4_cover

end Cert.KernelIdeal.RegionValue

end
-- ==== Proof.BiasRegions.lean ====
/- The two bias regions of the graph convolution, read as whole-array functions: after the region, the output
   array is the input array with the bias row added to every row (region 5), and the maximum of that sum with the
   zero literal (region 2). The block at grid point t is rows 10000 t … 10000 t + 9999; entry (n, j) lies in block
   n / 10000 at row n % 10000. -/
import proofs.«113802_j19069654794550_2_alg».proof.Proof.Gen.KernelIdeal.Frame
import proofs.«113802_j19069654794550_2_alg».proof.ReferenceIdeal
import proofs.«113802_j19069654794550_2_alg».proof.Proof.LibColumnLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Idealize.ShloMosaic Idealize.ShloMosaic.ValueIdx Cert.KernelIdeal Cert.KernelIdeal.Gen
open Idealize.ShloMosaic.TcCoe Idealize.SL.Sem
open Idealize.ShloMosaic.Pipeline (Dat)

variable [Cert.ReferenceIdeal.Facts₀]

/-- The zero offsets of a whole-block access. -/
theorem offs_zero : (![0, 0] : Fin 2 → Nat) = fun _ => 0 := funext fun a => by fin_cases a <;> rfl

/-! ## The bias added to every row, at an entry -/

/-- The region-5 body at entry (p, q) of a block: the block's entry plus the bias row's entry of column q. -/
theorem bias_block_apply (x0 : Vec Ideal S10000x64 .f32) (x1 : Vec Ideal S1x64 .f32) (p : Fin 10000) (q : Fin 64) :
    k5_pay1 x0 x1 (ix2 p q) = x0 (ix2 p q) + x1 (ix2 (0 : Fin 1) q) := by
  unfold k5_pay1
  rw [addf_apply, shapeCast_self, shapeCast_self, broadcastTo_1b_ab_apply]

/-- The host's sum of an array and a row broadcast to every row, at entry (n, j). -/
theorem bias_rows_apply (A : FVec Ideal Cert.ReferenceIdeal.S100000x64 .f32) (b : FVec Ideal Cert.ReferenceIdeal.S1x64 .f32)
    (n : Fin 100000) (j : Fin 64) :
    addf A (broadcastInDim Cert.ReferenceIdeal.S100000x64 ![0, 1] Cert.ReferenceIdeal.Facts₀.bcast_S1x64_S100000x64_0_1 b) (ix2 n j)
      = A (ix2 n j) + b (ix2 (0 : Fin 1) j) := by
  rw [addf_apply, Cert.LibColumnLayout.broadcastInDim_1b_ab_apply]

/-- The region-2 body at entry (p, q) of a block: the maximum of the block's entry plus the bias row's entry of
    column q, and the zero literal. -/
theorem bias_max_block_apply (x0 : Vec Ideal S10000x64 .f32) (x1 : Vec Ideal S1x64 .f32) (p : Fin 10000) (q : Fin 64) :
    k2_pay1 x0 x1 (ix2 p q) = max (x0 (ix2 p q) + x1 (ix2 (0 : Fin 1) q)) (Ideal.ofBits .f32 0x00000000#32) := by
  unfold k2_pay1
  rw [maximumf_apply, addf_apply, shapeCast_self, shapeCast_self, broadcastTo_1b_ab_apply, broadcast_apply]
  rfl

/-- The host's maximum of that sum and the zero constant broadcast to every entry, at entry (n, j). -/
theorem bias_max_rows_apply (A : FVec Ideal Cert.ReferenceIdeal.S100000x64 .f32) (b : FVec Ideal Cert.ReferenceIdeal.S1x64 .f32)
    (n : Fin 100000) (j : Fin 64) :
    maximumf (addf A (broadcastInDim Cert.ReferenceIdeal.S100000x64 ![0, 1] Cert.ReferenceIdeal.Facts₀.bcast_S1x64_S100000x64_0_1 b))
        (broadcastInDim Cert.ReferenceIdeal.S100000x64 ![] Cert.ReferenceIdeal.Facts₀.bcast_S_S100000x64
          (constant (F := Ideal) Cert.ReferenceIdeal.S_ .f32 0x00000000#32)) (ix2 n j)
      = max (A (ix2 n j) + b (ix2 (0 : Fin 1) j)) (Ideal.ofBits .f32 0x00000000#32) := by
  rw [maximumf_apply, bias_rows_apply, broadcastInDim_apply _ _ _ (ix2 n j) ix0 (fun a => a.elim0), constant_apply]

/-! ## Region 5: the bias added to every row -/

section Region5

variable (V : (c : Dev nD) → (b : Ref sig .tc) → Buf (Elt Ideal) ((c : Thread nD τ).loc b))

/-- The printed index maps over the grid: the row block of the input array and of the output array is the point's
    own, the bias row's block is always the one block there is. -/
theorem index5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry (p, q) of the input array's block at point t is the array's entry (10000 t + p, q). -/
theorem rows5_apply (c : Dev nD) (t : Fin cfg5.N) (p : Fin 10000) (q : Fin 64) (n : Fin 100000)
    (hn : n.val = t.val * 10000 + p.val) :
    iblk5 V c 0 t (ix2 p q) = (V c main_v57 : S100000x64.Idx → Elt Ideal .f32) (ix2 n q) := by
  obtain ⟨e0, e1, -, -, -, -⟩ := index5 t
  unfold iblk5
  rw [View.read_apply]
  show V c main_v57 _ = V c main_v57 _
  congr 1
  funext a
  apply Fin.ext
  match a with
  | ⟨0, _⟩ => show win5_0.index t (0 : Fin 2) * 10000 + 1 * p.val = n.val; rw [e0, hn]; omega
  | ⟨1, _⟩ => show win5_0.index t (1 : Fin 2) * 64 + 1 * q.val = q.val; rw [e1]; omega

/-- Entry (0, q) of the bias row's block at any point is the row's entry (0, q). -/
theorem bias5_apply (c : Dev nD) (t : Fin cfg5.N) (q : Fin 64) :
    iblk5 V c 1 t (ix2 (0 : Fin 1) q) = (V c main_v58 : S1x64.Idx → Elt Ideal .f32) (ix2 (0 : Fin 1) q) := by
  obtain ⟨-, -, e2, e3, -, -⟩ := index5 t
  unfold iblk5
  rw [View.read_apply]
  show V c main_v58 _ = V c main_v58 _
  congr 1
  funext a
  apply Fin.ext
  match a with
  | ⟨0, _⟩ => show win5_1.index t (0 : Fin 2) * 1 + 1 * 0 = 0; rw [e2]
  | ⟨1, _⟩ => show win5_1.index t (1 : Fin 2) * 64 + 1 * q.val = q.val; rw [e3]; omega

/-- What point t writes back is block t of the sum of the input array and the bias row broadcast to every row. -/
theorem flushed5_eq (c : Dev nD) (t : Fin cfg5.N) :
    (dat5 (F := Ideal) V c).flushed 2 t = ((cfg5.win 2).blk t).view.read (Elt Ideal)
      (addf (V c main_v57 : FVec Ideal Cert.ReferenceIdeal.S100000x64 .f32) (broadcastInDim Cert.ReferenceIdeal.S100000x64 ![0, 1] Cert.ReferenceIdeal.Facts₀.bcast_S1x64_S100000x64_0_1 (V c main_v58 : FVec Ideal Cert.ReferenceIdeal.S1x64 .f32)) : FVec Ideal Cert.ReferenceIdeal.S100000x64 .f32) := by
  show (cfg5.win 2).cut (grid5.coords t) ((dat5 V c).after 2 t) = _
  rw [after5_2]
  unfold out5_2
  rw [View.canon_unit_zero offs_zero]
  simp only [View.ld_unit_zero (S := S10000x64) offs_zero, View.ld_unit_zero (S := S1x64) offs_zero]
  obtain ⟨-, -, -, -, e4, e5⟩ := index5 t
  have ht : t.val < 10 := lt_of_lt_of_eq t.isLt N_5
  funext y
  obtain ⟨p, q, rfl⟩ : ∃ (p : Fin 10000) (q : Fin 64), y = ix2 p q := ⟨y 0, y 1, eq_ix2 y⟩
  have hp : p.val < 10000 := p.isLt
  refine (bias_block_apply (iblk5 V c 0 t) (iblk5 V c 1 t) p q).trans ?_
  rw [rows5_apply V c t p q ⟨t.val * 10000 + p.val, by omega⟩ rfl, bias5_apply V c t q, View.read_apply]
  have hemb : ((cfg5.win 2).blk t).view.emb (ix2 p q) = ix2 (⟨t.val * 10000 + p.val, by omega⟩ : Fin 100000) q := by
    funext a
    apply Fin.ext
    match a with
    | ⟨0, _⟩ => show win5_2.index t (0 : Fin 2) * 10000 + 1 * p.val = t.val * 10000 + p.val; rw [e4]; omega
    | ⟨1, _⟩ => show win5_2.index t (1 : Fin 2) * 64 + 1 * q.val = q.val; rw [e5]; omega
  rw [hemb]
  exact (bias_rows_apply _ _ _ _).symm

/-- An entry of the output array is in point t's block iff each coordinate is in the block's range on its axis. -/
theorem mem_block5 (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v59).slice (win5_2.rect t)).set ↔ _
  rw [View.set_slice_whole, Rect.mem_set_unit]
  exact Iff.rfl

/-- Every entry (n, j) of the output array is in the block of the point n / 10000, which writes back. -/
theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ : ∃ t : Fin cfg5.N, t.val = (i 0).val / 10000 :=
    ⟨⟨(i 0).val / 10000, lt_of_lt_of_eq (by omega : (i 0).val / 10000 < 10) N_5.symm⟩, rfl⟩
  obtain ⟨-, -, -, -, e4, e5⟩ := index5 t
  refine ⟨t, flush5_2 t, ?_⟩
  rw [mem_block5]
  intro a
  match a with
  | ⟨0, _⟩ =>
    show win5_2.index t (0 : Fin 2) * 10000 ≤ (i 0).val ∧ (i 0).val < win5_2.index t (0 : Fin 2) * 10000 + 10000
    rw [e4, ht]; omega
  | ⟨1, _⟩ =>
    show win5_2.index t (1 : Fin 2) * 64 ≤ (i 1).val ∧ (i 1).val < win5_2.index t (1 : Fin 2) * 64 + 64
    rw [e5]; omega

/-- REGION 5: after the region the output array is the input array plus the bias row broadcast to every row. -/
theorem region5_array (c : Dev nD) :
    (dat5 (F := Ideal) V c).arrAt 2 cfg5.N
      = (addf (V c main_v57 : FVec Ideal Cert.ReferenceIdeal.S100000x64 .f32) (broadcastInDim Cert.ReferenceIdeal.S100000x64 ![0, 1] Cert.ReferenceIdeal.Facts₀.bcast_S1x64_S100000x64_0_1 (V c main_v58 : FVec Ideal Cert.ReferenceIdeal.S1x64 .f32)) : FVec Ideal Cert.ReferenceIdeal.S100000x64 .f32) :=
  (dat5 V c).arrAt_eq_of_cover 2 _ (fun t _ => flushed5_eq V c t) cover5

end Region5

/-! ## Region 2: the bias added to every row, then the maximum with zero -/

section Region2

variable (V : (c : Dev nD) → (b : Ref sig .tc) → Buf (Elt Ideal) ((c : Thread nD τ).loc b))

/-- The printed index maps over the grid: the row block of the input array and of the output array is the point's
    own, the bias row's block is always the one block there is. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, q) of the input array's block at point t is the array's entry (10000 t + p, q). -/
theorem rows2_apply (c : Dev nD) (t : Fin cfg2.N) (p : Fin 10000) (q : Fin 64) (n : Fin 100000)
    (hn : n.val = t.val * 10000 + p.val) :
    iblk2 V c 0 t (ix2 p q) = (V c main_v42 : S100000x64.Idx → Elt Ideal .f32) (ix2 n q) := by
  obtain ⟨e0, e1, -, -, -, -⟩ := index2 t
  unfold iblk2
  rw [View.read_apply]
  show V c main_v42 _ = V c main_v42 _
  congr 1
  funext a
  apply Fin.ext
  match a with
  | ⟨0, _⟩ => show win2_0.index t (0 : Fin 2) * 10000 + 1 * p.val = n.val; rw [e0, hn]; omega
  | ⟨1, _⟩ => show win2_0.index t (1 : Fin 2) * 64 + 1 * q.val = q.val; rw [e1]; omega

/-- Entry (0, q) of the bias row's block at any point is the row's entry (0, q). -/
theorem bias2_apply (c : Dev nD) (t : Fin cfg2.N) (q : Fin 64) :
    iblk2 V c 1 t (ix2 (0 : Fin 1) q) = (V c main_v43 : S1x64.Idx → Elt Ideal .f32) (ix2 (0 : Fin 1) q) := by
  obtain ⟨-, -, e2, e3, -, -⟩ := index2 t
  unfold iblk2
  rw [View.read_apply]
  show V c main_v43 _ = V c main_v43 _
  congr 1
  funext a
  apply Fin.ext
  match a with
  | ⟨0, _⟩ => show win2_1.index t (0 : Fin 2) * 1 + 1 * 0 = 0; rw [e2]
  | ⟨1, _⟩ => show win2_1.index t (1 : Fin 2) * 64 + 1 * q.val = q.val; rw [e3]; omega

/-- What point t writes back is block t of the maximum of zero and the sum of the input array and the bias row
    broadcast to every row. -/
theorem flushed2_eq (c : Dev nD) (t : Fin cfg2.N) :
    (dat2 (F := Ideal) V c).flushed 2 t = ((cfg2.win 2).blk t).view.read (Elt Ideal)
      (maximumf (addf (V c main_v42 : FVec Ideal Cert.ReferenceIdeal.S100000x64 .f32) (broadcastInDim Cert.ReferenceIdeal.S100000x64 ![0, 1] Cert.ReferenceIdeal.Facts₀.bcast_S1x64_S100000x64_0_1 (V c main_v43 : FVec Ideal Cert.ReferenceIdeal.S1x64 .f32)))
          (broadcastInDim Cert.ReferenceIdeal.S100000x64 ![] Cert.ReferenceIdeal.Facts₀.bcast_S_S100000x64 (constant (F := Ideal) Cert.ReferenceIdeal.S_ .f32 0x00000000#32)) : FVec Ideal Cert.ReferenceIdeal.S100000x64 .f32) := by
  show (cfg2.win 2).cut (grid2.coords t) ((dat2 V c).after 2 t) = _
  rw [after2_2]
  unfold out2_2
  rw [View.canon_unit_zero offs_zero]
  simp only [View.ld_unit_zero (S := S10000x64) offs_zero, View.ld_unit_zero (S := S1x64) offs_zero]
  obtain ⟨-, -, -, -, e4, e5⟩ := index2 t
  have ht : t.val < 10 := lt_of_lt_of_eq t.isLt N_2
  funext y
  obtain ⟨p, q, rfl⟩ : ∃ (p : Fin 10000) (q : Fin 64), y = ix2 p q := ⟨y 0, y 1, eq_ix2 y⟩
  have hp : p.val < 10000 := p.isLt
  refine (bias_max_block_apply (iblk2 V c 0 t) (iblk2 V c 1 t) p q).trans ?_
  rw [rows2_apply V c t p q ⟨t.val * 10000 + p.val, by omega⟩ rfl, bias2_apply V c t q, View.read_apply]
  have hemb : ((cfg2.win 2).blk t).view.emb (ix2 p q) = ix2 (⟨t.val * 10000 + p.val, by omega⟩ : Fin 100000) q := by
    funext a
    apply Fin.ext
    match a with
    | ⟨0, _⟩ => show win2_2.index t (0 : Fin 2) * 10000 + 1 * p.val = t.val * 10000 + p.val; rw [e4]; omega
    | ⟨1, _⟩ => show win2_2.index t (1 : Fin 2) * 64 + 1 * q.val = q.val; rw [e5]; omega
  rw [hemb]
  exact (bias_max_rows_apply _ _ _ _).symm

/-- An entry of the output array is in point t's block iff each coordinate is in the block's range on its axis. -/
theorem mem_block2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v44).slice (win2_2.rect t)).set ↔ _
  rw [View.set_slice_whole, Rect.mem_set_unit]
  exact Iff.rfl

/-- Every entry (n, j) of the output array is in the block of the point n / 10000, which writes back. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, lt_of_lt_of_eq (by omega : (i 0).val / 10000 < 10) N_2.symm⟩, rfl⟩
  obtain ⟨-, -, -, -, e4, e5⟩ := index2 t
  refine ⟨t, flush2_2 t, ?_⟩
  rw [mem_block2]
  intro a
  match a with
  | ⟨0, _⟩ =>
    show win2_2.index t (0 : Fin 2) * 10000 ≤ (i 0).val ∧ (i 0).val < win2_2.index t (0 : Fin 2) * 10000 + 10000
    rw [e4, ht]; omega
  | ⟨1, _⟩ =>
    show win2_2.index t (1 : Fin 2) * 64 ≤ (i 1).val ∧ (i 1).val < win2_2.index t (1 : Fin 2) * 64 + 64
    rw [e5]; omega

/-- REGION 2: after the region the output array is the maximum of zero and the input array plus the bias row broadcast
    to every row. -/
theorem region2_array (c : Dev nD) :
    (dat2 (F := Ideal) V c).arrAt 2 cfg2.N
      = (maximumf (addf (V c main_v42 : FVec Ideal Cert.ReferenceIdeal.S100000x64 .f32) (broadcastInDim Cert.ReferenceIdeal.S100000x64 ![0, 1] Cert.ReferenceIdeal.Facts₀.bcast_S1x64_S100000x64_0_1 (V c main_v43 : FVec Ideal Cert.ReferenceIdeal.S1x64 .f32)))
          (broadcastInDim Cert.ReferenceIdeal.S100000x64 ![] Cert.ReferenceIdeal.Facts₀.bcast_S_S100000x64 (constant (F := Ideal) Cert.ReferenceIdeal.S_ .f32 0x00000000#32)) : FVec Ideal Cert.ReferenceIdeal.S100000x64 .f32) :=
  (dat2 V c).arrAt_eq_of_cover 2 _ (fun t _ => flushed2_eq V c t) cover2

end Region2

end Cert.KernelIdeal.RegionValue

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.MatmulRegion0.lean ====
/-
  The first layer's feature product, over the extended reals: a [100000,128] array X times a [128,64] matrix W.

  The region computes it in ten row blocks of 10000 rows. Point t reads rows 10000·t … 10000·t + 9999 of X and the
  whole of W, and writes rows 10000·t … 10000·t + 9999 of the output; a block's entry (p, q) is Σₖ X(10000·t + p, k) · W(k, q)
  (narrowing the operands to the 16-bit format is the identity over the extended reals, and the accumulator starts
  at zero). The whole-array product has the same sum at entry (10000·t + p, q), every output row r lies in block
  r / 10000, so after the ten points the output array is the whole-array product of X and W as the region finds them.
-/
import proofs.«113802_j19069654794550_2_alg».proof.Proof.Gen.KernelIdeal.Frame
import proofs.«113802_j19069654794550_2_alg».proof.ReferenceIdeal
import proofs.«113802_j19069654794550_2_alg».proof.Proof.Gen.ReferenceIdeal
import proofs.«113802_j19069654794550_2_alg».proof.Proof.LibMatmulRowsByCols
import Idealize.ShloMosaic.Lib.ValueIdx
import Idealize.ShloMosaic.Lib.Pipeline.Value
import Idealize.ShloMosaic.PureOps.Ideal.Laws

noncomputable section

namespace Cert.KernelIdeal.RegionValue

open Idealize.ShloMosaic Idealize.ShloMosaic.TcCoe Idealize.ShloMosaic.ValueIdx Idealize.SL.Sem
open Cert.KernelIdeal Cert.KernelIdeal.Gen
open Idealize.ShloMosaic.Pipeline (Dat)

/-! ## Region 0: the first layer's feature product, [100000,128] by [128,64] -/

/-- One block's product at an entry: row p of the left block against column q of the right operand
    (narrowing to the 16-bit format is the identity over the extended reals). -/
theorem k0_pay1_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact Cert.RowsByCols.matmul_zero_apply dot_S10000x128_S128x64_S10000x64_1_0_0_1_n_n ⟨rfl, rfl, rfl, rfl, rfl, rfl⟩ none
    (truncf .bf16 x0 bitsLt_bf16_f32) (truncf .bf16 x1 bitsLt_bf16_f32) p q

/-- The printed index maps over the ten grid points: the left operand and the output move by row blocks,
    the right operand stays at block (0, 0). -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point t holds rows 10000·t … 10000·t + 9999 of the left array. -/
theorem iblk0_0_apply (V : (c : Dev nD) → (b : Ref sig .tc) → Buf (Elt Ideal) ((c : Thread nD τ).loc b)) (c : Dev nD) (t : Fin cfg0.N)
    (p : Fin 10000) (k : Fin 128) (n : Fin 100000) (hn : n.val = t.val * 10000 + p.val) :
    (iblk0 V c 0 t : Vec Ideal S10000x128 .f32) (ix2 p k) = (V c main_arg0 : S100000x128.Idx → Elt Ideal .f32) (ix2 n k) := by
  obtain ⟨e0, e1, -⟩ := index0 t
  unfold iblk0
  rw [View.read_apply]
  show V c main_arg0 _ = V c main_arg0 _
  congr 1
  funext a
  apply Fin.ext
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- The right block at every point is the whole right array. -/
theorem iblk0_1_apply (V : (c : Dev nD) → (b : Ref sig .tc) → Buf (Elt Ideal) ((c : Thread nD τ).loc b)) (c : Dev nD) (t : Fin cfg0.N)
    (k : Fin 128) (q : Fin 64) :
    (iblk0 V c 1 t : Vec Ideal S128x64 .f32) (ix2 k q) = (V c main_arg2 : S128x64.Idx → Elt Ideal .f32) (ix2 k q) := by
  obtain ⟨-, -, e0, e1, -⟩ := index0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- What point t writes back is block t of the whole product of the two arrays as the region finds them:
    entry (p, q) of the block is entry (10000·t + p, q) of the array, and both are the same sum over the shared axis. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x128_S128x64_S100000x64_1_0_0_1_n_n none (V c main_arg0) (V c main_arg2)) := by
  show (cfg0.win 2).cut (grid0.coords t) ((dat0 V c).after 2 t) = _
  rw [after0_2]
  unfold out0_2
  have hz : (![0, 0] : Fin 2 → Nat) = fun _ => 0 := funext fun a => by fin_cases a <;> rfl
  rw [View.canon_unit_zero hz]
  simp only [View.ld_unit_zero (S := S10000x128) hz, View.ld_unit_zero (S := S128x64) hz]
  obtain ⟨-, -, -, -, e0, e1⟩ := index0 t
  have hN : cfg0.N = 10 := N_0
  have ht : t.val < 10 := hN ▸ t.isLt
  funext j
  obtain ⟨p, q, rfl⟩ : ∃ (p : Fin 10000) (q : Fin 64), j = ix2 p q := ⟨j 0, j 1, eq_ix2 j⟩
  have hemb : ((cfg0.win 2).blk t).view.emb (ix2 p q) = (ix2 (⟨t.val * 10000 + p.val, by omega⟩ : Fin 100000) q : S100000x64.Idx) := by
    funext a
    apply Fin.ext
    match a with
    | ⟨0, _⟩ => show win0_2.index t (0 : Fin 2) * 10000 + 1 * p.val = t.val * 10000 + p.val; rw [e0]; omega
    | ⟨1, _⟩ => show win0_2.index t (1 : Fin 2) * 64 + 1 * q.val = q.val; rw [e1]; omega
  show k0_pay1 (iblk0 V c 0 t) (iblk0 V c 1 t) (ix2 p q)
    = Host.dotGeneral (F := Ideal) (φ₁ := .f32) (φ₂ := .f32) Cert.ReferenceIdeal.dot_S100000x128_S128x64_S100000x64_1_0_0_1_n_n none (V c main_arg0) (V c main_arg2) (((cfg0.win 2).blk t).view.emb (ix2 p q))
  rw [hemb, k0_pay1_apply]
  refine Eq.trans ?_ (Cert.RowsByCols.dotGeneral_apply Cert.ReferenceIdeal.dot_S100000x128_S128x64_S100000x64_1_0_0_1_n_n ⟨rfl, rfl, rfl, rfl, rfl, rfl⟩ none
    (V c main_arg0) (V c main_arg2) _ q).symm
  refine Finset.sum_congr rfl fun k _ => ?_
  rw [iblk0_0_apply V c t p k ⟨t.val * 10000 + p.val, by omega⟩ rfl, iblk0_1_apply V c t k q]

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten row blocks cover the output array: row r lies in block r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have hlt : (i 0).val / 10000 < cfg0.N := by rw [hN]; omega
  obtain ⟨-, -, -, -, e0, e1⟩ := index0 ⟨(i 0).val / 10000, hlt⟩
  refine ⟨⟨(i 0).val / 10000, hlt⟩, flush0_2 _, ?_⟩
  rw [mem_blk0]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win0_2.index ⟨(i 0).val / 10000, hlt⟩ (1 : Fin 2) * 64 ≤ (i 1).val ∧ (i 1).val < win0_2.index ⟨(i 0).val / 10000, hlt⟩ (1 : Fin 2) * 64 + 64
    rw [e1]; omega

/-- REGION 0: after the region the output array is the host's product of the two input arrays as the region finds them. -/
theorem region0_array (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S100000x128_S128x64_S100000x64_1_0_0_1_n_n none (V c main_arg0) (V c main_arg2) :=
  (dat0 (F := Ideal) V c).arrAt_eq_of_cover 2 _ (fun t _ => flushed0_eq V c t) cover0

end Cert.KernelIdeal.RegionValue

end
-- ==== Proof.MatmulRegion3.lean ====
/-
  The second layer's feature product, over the extended reals: a [100000,64] array H times a [64,64] matrix W.

  The region computes it in ten row blocks of 10000 rows. Point t reads rows 10000·t … 10000·t + 9999 of H and the
  whole of W, and writes rows 10000·t … 10000·t + 9999 of the output; a block's entry (p, q) is Σₖ H(10000·t + p, k) · W(k, q)
  (the cast of the left block to its own shape and narrowing the operands to the 16-bit format are the identity over
  the extended reals, and the accumulator starts at zero). The whole-array product has the same sum at entry
  (10000·t + p, q), every output row r lies in block r / 10000, so after the ten points the output array is the
  whole-array product of H and W as the region finds them.
-/
import proofs.«113802_j19069654794550_2_alg».proof.Proof.Gen.KernelIdeal.Frame
import proofs.«113802_j19069654794550_2_alg».proof.ReferenceIdeal
import proofs.«113802_j19069654794550_2_alg».proof.Proof.Gen.ReferenceIdeal
import proofs.«113802_j19069654794550_2_alg».proof.Proof.LibMatmulRowsByCols
import Idealize.ShloMosaic.Lib.ValueIdx
import Idealize.ShloMosaic.Lib.Pipeline.Value
import Idealize.ShloMosaic.PureOps.Ideal.Laws

noncomputable section

namespace Cert.KernelIdeal.RegionValue

open Idealize.ShloMosaic Idealize.ShloMosaic.TcCoe Idealize.ShloMosaic.ValueIdx Idealize.SL.Sem
open Cert.KernelIdeal Cert.KernelIdeal.Gen
open Idealize.ShloMosaic.Pipeline (Dat)

/-! ## Region 3: the second layer's feature product, [100000,64] by [64,64] -/

/-- One block's product at an entry: row p of the left block against column q of the right operand
    (the cast of the left block to its own shape and narrowing to the 16-bit format are the identity over the extended reals). -/
theorem k3_pay1_apply (x0 : Vec Ideal S10000x64 .f32) (x1 : Vec Ideal S64x64 .f32) (p : Fin 10000) (q : Fin 64) :
    k3_pay1 x0 x1 (ix2 p q) = ∑ k : Fin 64, x0 (ix2 p k) * x1 (ix2 k q) := by
  unfold k3_pay1
  rw [shapeCast_self]
  exact Cert.RowsByCols.matmul_zero_apply dot_S10000x64_S64x64_S10000x64_1_0_0_1_n_n ⟨rfl, rfl, rfl, rfl, rfl, rfl⟩ none
    (truncf .bf16 x0 bitsLt_bf16_f32) (truncf .bf16 x1 bitsLt_bf16_f32) p q

/-- The printed index maps over the ten grid points: the left operand and the output move by row blocks,
    the right operand stays at block (0, 0). -/
theorem index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left block at point t holds rows 10000·t … 10000·t + 9999 of the left array. -/
theorem iblk3_0_apply (V : (c : Dev nD) → (b : Ref sig .tc) → Buf (Elt Ideal) ((c : Thread nD τ).loc b)) (c : Dev nD) (t : Fin cfg3.N)
    (p : Fin 10000) (k : Fin 64) (n : Fin 100000) (hn : n.val = t.val * 10000 + p.val) :
    (iblk3 V c 0 t : Vec Ideal S10000x64 .f32) (ix2 p k) = (V c main_v44 : S100000x64.Idx → Elt Ideal .f32) (ix2 n k) := by
  obtain ⟨e0, e1, -⟩ := index3 t
  unfold iblk3
  rw [View.read_apply]
  show V c main_v44 _ = V c main_v44 _
  congr 1
  funext a
  apply Fin.ext
  match a with
  | ⟨0, _⟩ => show win3_0.index t (0 : Fin 2) * 10000 + 1 * p.val = n.val; rw [e0, hn]; omega
  | ⟨1, _⟩ => show win3_0.index t (1 : Fin 2) * 64 + 1 * k.val = k.val; rw [e1]; omega

/-- The right block at every point is the whole right array. -/
theorem iblk3_1_apply (V : (c : Dev nD) → (b : Ref sig .tc) → Buf (Elt Ideal) ((c : Thread nD τ).loc b)) (c : Dev nD) (t : Fin cfg3.N)
    (k : Fin 64) (q : Fin 64) :
    (iblk3 V c 1 t : Vec Ideal S64x64 .f32) (ix2 k q) = (V c main_arg4 : S64x64.Idx → Elt Ideal .f32) (ix2 k q) := by
  obtain ⟨-, -, e0, e1, -⟩ := index3 t
  unfold iblk3
  rw [View.read_apply]
  show V c main_arg4 _ = V c main_arg4 _
  congr 1
  funext a
  apply Fin.ext
  match a with
  | ⟨0, _⟩ => show win3_1.index t (0 : Fin 2) * 64 + 1 * k.val = k.val; rw [e0]; omega
  | ⟨1, _⟩ => show win3_1.index t (1 : Fin 2) * 64 + 1 * q.val = q.val; rw [e1]; omega

/-- What point t writes back is block t of the whole product of the two arrays as the region finds them:
    entry (p, q) of the block is entry (10000·t + p, q) of the array, and both are the same sum over the shared axis. -/
theorem flushed3_eq (V : (c : Dev nD) → (b : Ref sig .tc) → Buf (Elt Ideal) ((c : Thread nD τ).loc b)) (c : Dev nD) (t : Fin cfg3.N) :
    (dat3 (F := Ideal) V c).flushed 2 t = ((cfg3.win 2).blk t).view.read (Elt Ideal)
      (Host.dotGeneral (F := Ideal) (φ₁ := .f32) (φ₂ := .f32) Cert.ReferenceIdeal.dot_S100000x64_S64x64_S100000x64_1_0_0_1_n_n none (V c main_v44) (V c main_arg4)) := by
  show (cfg3.win 2).cut (grid3.coords t) ((dat3 V c).after 2 t) = _
  rw [after3_2]
  unfold out3_2
  have hz : (![0, 0] : Fin 2 → Nat) = fun _ => 0 := funext fun a => by fin_cases a <;> rfl
  rw [View.canon_unit_zero hz]
  simp only [View.ld_unit_zero (S := S10000x64) hz, View.ld_unit_zero (S := S64x64) hz]
  obtain ⟨-, -, -, -, e0, e1⟩ := index3 t
  have hN : cfg3.N = 10 := N_3
  have ht : t.val < 10 := hN ▸ t.isLt
  funext j
  obtain ⟨p, q, rfl⟩ : ∃ (p : Fin 10000) (q : Fin 64), j = ix2 p q := ⟨j 0, j 1, eq_ix2 j⟩
  have hemb : ((cfg3.win 2).blk t).view.emb (ix2 p q) = (ix2 (⟨t.val * 10000 + p.val, by omega⟩ : Fin 100000) q : S100000x64.Idx) := by
    funext a
    apply Fin.ext
    match a with
    | ⟨0, _⟩ => show win3_2.index t (0 : Fin 2) * 10000 + 1 * p.val = t.val * 10000 + p.val; rw [e0]; omega
    | ⟨1, _⟩ => show win3_2.index t (1 : Fin 2) * 64 + 1 * q.val = q.val; rw [e1]; omega
  show k3_pay1 (iblk3 V c 0 t) (iblk3 V c 1 t) (ix2 p q)
    = Host.dotGeneral (F := Ideal) (φ₁ := .f32) (φ₂ := .f32) Cert.ReferenceIdeal.dot_S100000x64_S64x64_S100000x64_1_0_0_1_n_n none (V c main_v44) (V c main_arg4) (((cfg3.win 2).blk t).view.emb (ix2 p q))
  rw [hemb, k3_pay1_apply]
  refine Eq.trans ?_ (Cert.RowsByCols.dotGeneral_apply Cert.ReferenceIdeal.dot_S100000x64_S64x64_S100000x64_1_0_0_1_n_n ⟨rfl, rfl, rfl, rfl, rfl, rfl⟩ none
    (V c main_v44) (V c main_arg4) _ q).symm
  refine Finset.sum_congr rfl fun k _ => ?_
  rw [iblk3_0_apply V c t p k ⟨t.val * 10000 + p.val, by omega⟩ rfl, iblk3_1_apply V c t k q]

/-- An index of the output array is in point t's block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v45).slice (win3_2.rect t)).set ↔ _
  rw [View.set_slice_whole, Rect.mem_set_unit]
  exact Iff.rfl

/-- The ten row blocks cover the output array: row r lies in block r / 10000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have hlt : (i 0).val / 10000 < cfg3.N := by rw [hN]; omega
  obtain ⟨-, -, -, -, e0, e1⟩ := index3 ⟨(i 0).val / 10000, hlt⟩
  refine ⟨⟨(i 0).val / 10000, hlt⟩, flush3_2 _, ?_⟩
  rw [mem_blk3]
  intro a
  match a with
  | ⟨0, _⟩ =>
    show win3_2.index ⟨(i 0).val / 10000, hlt⟩ (0 : Fin 2) * 10000 ≤ (i 0).val ∧ (i 0).val < win3_2.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win3_2.index ⟨(i 0).val / 10000, hlt⟩ (1 : Fin 2) * 64 ≤ (i 1).val ∧ (i 1).val < win3_2.index ⟨(i 0).val / 10000, hlt⟩ (1 : Fin 2) * 64 + 64
    rw [e1]; omega

/-- REGION 3: after the region the output array is the host's product of the two input arrays as the region finds them. -/
theorem region3_array (V : (c : Dev nD) → (b : Ref sig .tc) → Buf (Elt Ideal) ((c : Thread nD τ).loc b)) (c : Dev nD) :
    (dat3 (F := Ideal) V c).arrAt 2 cfg3.N
      = Host.dotGeneral (F := Ideal) (φ₁ := .f32) (φ₂ := .f32) Cert.ReferenceIdeal.dot_S100000x64_S64x64_S100000x64_1_0_0_1_n_n none (V c main_v44) (V c main_arg4) :=
  (dat3 (F := Ideal) V c).arrAt_eq_of_cover 2 _ (fun t _ => flushed3_eq V c t) cover3

end Cert.KernelIdeal.RegionValue

end
-- ==== Proof.MatmulRegion6.lean ====
/-
  The output product with its bias row, over the extended reals: a [100000,64] array H times a [64,16] matrix W,
  plus a [1,16] row b placed on every row.

  The region computes it in ten row blocks of 10000 rows. Point t reads rows 10000·t … 10000·t + 9999 of H, the whole
  of W and the whole of b, and writes rows 10000·t … 10000·t + 9999 of the output; a block's entry (p, q) is
  Σₖ H(10000·t + p, k) · W(k, q) + b(0, q) (the casts of the left block and of the row to their own shapes and narrowing
  the operands to the 16-bit format are the identity over the extended reals, the accumulator starts at zero, and the
  row is repeated down the block). The whole-array product plus the row placed on both axes has the same value at
  entry (10000·t + p, q), every output row r lies in block r / 10000, so after the ten points the output array is that
  whole-array function of H, W and b as the region finds them.
-/
import proofs.«113802_j19069654794550_2_alg».proof.Proof.Gen.KernelIdeal.Frame
import proofs.«113802_j19069654794550_2_alg».proof.ReferenceIdeal
import proofs.«113802_j19069654794550_2_alg».proof.Proof.Gen.ReferenceIdeal
import proofs.«113802_j19069654794550_2_alg».proof.Proof.LibMatmulRowsByCols
import proofs.«113802_j19069654794550_2_alg».proof.Proof.LibColumnLayout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.RegionValue

open Idealize.ShloMosaic Idealize.ShloMosaic.TcCoe Idealize.ShloMosaic.ValueIdx Idealize.SL.Sem
open Cert.KernelIdeal Cert.KernelIdeal.Gen
open Idealize.ShloMosaic.Pipeline (Dat)

/-! ## Region 6: the output product with its bias row, [100000,64] by [64,16] plus [1,16] -/

/-- One block's entry: row p of the left block against column q of the right operand, plus the bias row's entry q
    (the casts of the left block and of the bias row to their own shapes and narrowing to the 16-bit format are the
    identity over the extended reals; the bias row is repeated down the 10000 rows). -/
theorem k6_pay1_apply (x0 : Vec Ideal S10000x64 .f32) (x1 : Vec Ideal S64x16 .f32) (x2 : Vec Ideal S1x16 .f32)
    (p : Fin 10000) (q : Fin 16) :
    k6_pay1 x0 x1 x2 (ix2 p q) = (∑ k : Fin 64, x0 (ix2 p k) * x1 (ix2 k q)) + x2 (ix2 (0 : Fin 1) q) := by
  unfold k6_pay1
  rw [shapeCast_self, shapeCast_self]
  refine (addf_apply _ _ (ix2 p q)).trans ?_
  refine congrArg₂ (· + ·) ?_ ?_
  · exact Cert.RowsByCols.matmul_zero_apply dot_S10000x64_S64x16_S10000x16_1_0_0_1_n_n ⟨rfl, rfl, rfl, rfl, rfl, rfl⟩ none
      (truncf .bf16 x0 bitsLt_bf16_f32) (truncf .bf16 x1 bitsLt_bf16_f32) p q
  · exact broadcastTo_1b_ab_apply x2 broadcasts_S1x16_S10000x16 p q

/-- The printed index maps over the ten grid points: the left operand and the output move by row blocks,
    the right operand and the bias row stay at block (0, 0). -/
theorem index6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The left block at point t holds rows 10000·t … 10000·t + 9999 of the left array. -/
theorem iblk6_0_apply (V : (c : Dev nD) → (b : Ref sig .tc) → Buf (Elt Ideal) ((c : Thread nD τ).loc b)) (c : Dev nD) (t : Fin cfg6.N)
    (p : Fin 10000) (k : Fin 64) (n : Fin 100000) (hn : n.val = t.val * 10000 + p.val) :
    (iblk6 V c 0 t : Vec Ideal S10000x64 .f32) (ix2 p k) = (V c main_v59 : S100000x64.Idx → Elt Ideal .f32) (ix2 n k) := by
  obtain ⟨e0, e1, -⟩ := index6 t
  unfold iblk6
  rw [View.read_apply]
  show V c main_v59 _ = V c main_v59 _
  congr 1
  funext a
  apply Fin.ext
  match a with
  | ⟨0, _⟩ => show win6_0.index t (0 : Fin 2) * 10000 + 1 * p.val = n.val; rw [e0, hn]; omega
  | ⟨1, _⟩ => show win6_0.index t (1 : Fin 2) * 64 + 1 * k.val = k.val; rw [e1]; omega

/-- The right block at every point is the whole right array. -/
theorem iblk6_1_apply (V : (c : Dev nD) → (b : Ref sig .tc) → Buf (Elt Ideal) ((c : Thread nD τ).loc b)) (c : Dev nD) (t : Fin cfg6.N)
    (k : Fin 64) (q : Fin 16) :
    (iblk6 V c 1 t : Vec Ideal S64x16 .f32) (ix2 k q) = (V c main_arg6 : S64x16.Idx → Elt Ideal .f32) (ix2 k q) := by
  obtain ⟨-, -, e0, e1, -⟩ := index6 t
  unfold iblk6
  rw [View.read_apply]
  show V c main_arg6 _ = V c main_arg6 _
  congr 1
  funext a
  apply Fin.ext
  match a with
  | ⟨0, _⟩ => show win6_1.index t (0 : Fin 2) * 64 + 1 * k.val = k.val; rw [e0]; omega
  | ⟨1, _⟩ => show win6_1.index t (1 : Fin 2) * 16 + 1 * q.val = q.val; rw [e1]; omega

/-- The bias block at every point is the whole bias row. -/
theorem iblk6_2_apply (V : (c : Dev nD) → (b : Ref sig .tc) → Buf (Elt Ideal) ((c : Thread nD τ).loc b)) (c : Dev nD) (t : Fin cfg6.N)
    (u : Fin 1) (q : Fin 16) :
    (iblk6 V c 2 t : Vec Ideal S1x16 .f32) (ix2 u q) = (V c main_v60 : S1x16.Idx → Elt Ideal .f32) (ix2 u q) := by
  obtain ⟨-, -, -, -, e0, e1, -⟩ := index6 t
  unfold iblk6
  rw [View.read_apply]
  show V c main_v60 _ = V c main_v60 _
  congr 1
  funext a
  apply Fin.ext
  match a with
  | ⟨0, _⟩ => show win6_2.index t (0 : Fin 2) * 1 + 1 * u.val = u.val; rw [e0]; omega
  | ⟨1, _⟩ => show win6_2.index t (1 : Fin 2) * 16 + 1 * q.val = q.val; rw [e1]; omega

/-- What point t writes back is block t of the whole product plus the bias row placed on every row, of the arrays as
    the region finds them: entry (p, q) of the block is entry (10000·t + p, q) of the array; both are the same sum over the
    shared axis plus the bias row's entry q. -/
theorem flushed6_eq (V : (c : Dev nD) → (b : Ref sig .tc) → Buf (Elt Ideal) ((c : Thread nD τ).loc b)) (c : Dev nD) (t : Fin cfg6.N) :
    (dat6 (F := Ideal) V c).flushed 3 t = ((cfg6.win 3).blk t).view.read (Elt Ideal)
      (addf (Host.dotGeneral (F := Ideal) (φ₁ := .f32) (φ₂ := .f32) Cert.ReferenceIdeal.dot_S100000x64_S64x16_S100000x16_1_0_0_1_n_n none (V c main_v59) (V c main_arg6))
        (broadcastInDim Cert.ReferenceIdeal.S100000x16 ![0, 1] Cert.ReferenceIdeal.Facts₀.bcast_S1x16_S100000x16_0_1 (V c main_v60))) := by
  show (cfg6.win 3).cut (grid6.coords t) ((dat6 V c).after 3 t) = _
  rw [after6_3]
  unfold out6_3
  have hz : (![0, 0] : Fin 2 → Nat) = fun _ => 0 := funext fun a => by fin_cases a <;> rfl
  rw [View.canon_unit_zero hz]
  simp only [View.ld_unit_zero (S := S10000x64) hz, View.ld_unit_zero (S := S64x16) hz, View.ld_unit_zero (S := S1x16) hz]
  obtain ⟨-, -, -, -, -, -, e0, e1⟩ := index6 t
  have hN : cfg6.N = 10 := N_6
  have ht : t.val < 10 := hN ▸ t.isLt
  funext j
  obtain ⟨p, q, rfl⟩ : ∃ (p : Fin 10000) (q : Fin 16), j = ix2 p q := ⟨j 0, j 1, eq_ix2 j⟩
  have hemb : ((cfg6.win 3).blk t).view.emb (ix2 p q) = (ix2 (⟨t.val * 10000 + p.val, by omega⟩ : Fin 100000) q : S100000x16.Idx) := by
    funext a
    apply Fin.ext
    match a with
    | ⟨0, _⟩ => show win6_3.index t (0 : Fin 2) * 10000 + 1 * p.val = t.val * 10000 + p.val; rw [e0]; omega
    | ⟨1, _⟩ => show win6_3.index t (1 : Fin 2) * 16 + 1 * q.val = q.val; rw [e1]; omega
  show k6_pay1 (iblk6 V c 0 t) (iblk6 V c 1 t) (iblk6 V c 2 t) (ix2 p q)
    = (addf (Host.dotGeneral (F := Ideal) (φ₁ := .f32) (φ₂ := .f32) Cert.ReferenceIdeal.dot_S100000x64_S64x16_S100000x16_1_0_0_1_n_n none (V c main_v59) (V c main_arg6))
        (broadcastInDim Cert.ReferenceIdeal.S100000x16 ![0, 1] Cert.ReferenceIdeal.Facts₀.bcast_S1x16_S100000x16_0_1 (V c main_v60))) (((cfg6.win 3).blk t).view.emb (ix2 p q))
  rw [hemb, k6_pay1_apply]
  refine Eq.trans ?_ (addf_apply _ _ _).symm
  refine congrArg₂ (· + ·) ?_ ?_
  · refine Eq.trans ?_ (Cert.RowsByCols.dotGeneral_apply Cert.ReferenceIdeal.dot_S100000x64_S64x16_S100000x16_1_0_0_1_n_n ⟨rfl, rfl, rfl, rfl, rfl, rfl⟩ none
      (V c main_v59) (V c main_arg6) _ q).symm
    refine Finset.sum_congr rfl fun k _ => ?_
    rw [iblk6_0_apply V c t p k ⟨t.val * 10000 + p.val, by omega⟩ rfl, iblk6_1_apply V c t k q]
  · refine Eq.trans (iblk6_2_apply V c t 0 q) ?_
    exact (Cert.LibColumnLayout.broadcastInDim_1b_ab_apply (V c main_v60) Cert.ReferenceIdeal.Facts₀.bcast_S1x16_S100000x16_0_1 _ q).symm

/-- An index of the output array is in point t's block iff each coordinate is in the block's range on its axis. -/
theorem mem_blk6 (t : Fin cfg6.N) (i : S100000x16.Idx) :
    i ∈ ((cfg6.win 3).blk t).view.set ↔ ∀ a : Fin 2, win6_3.index t a * S10000x16.size a ≤ (i a).val ∧ (i a).val < win6_3.index t a * S10000x16.size a + S10000x16.size a := by
  show i ∈ ((View.whole main_v61).slice (win6_3.rect t)).set ↔ _
  rw [View.set_slice_whole, Rect.mem_set_unit]
  exact Iff.rfl

/-- The ten row blocks cover the output array: row r lies in block r / 10000. -/
theorem cover6 (i : S100000x16.Idx) : ∃ t : Fin cfg6.N, (cfg6.win 3).flush t = true ∧ i ∈ ((cfg6.win 3).blk t).view.set := by
  have hi0 : (i 0).val < 100000 := (i 0).isLt
  have hi1 : (i 1).val < 16 := (i 1).isLt
  have hN : cfg6.N = 10 := N_6
  have hlt : (i 0).val / 10000 < cfg6.N := by rw [hN]; omega
  obtain ⟨-, -, -, -, -, -, e0, e1⟩ := index6 ⟨(i 0).val / 10000, hlt⟩
  refine ⟨⟨(i 0).val / 10000, hlt⟩, flush6_3 _, ?_⟩
  rw [mem_blk6]
  intro a
  match a with
  | ⟨0, _⟩ =>
    show win6_3.index ⟨(i 0).val / 10000, hlt⟩ (0 : Fin 2) * 10000 ≤ (i 0).val ∧ (i 0).val < win6_3.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win6_3.index ⟨(i 0).val / 10000, hlt⟩ (1 : Fin 2) * 16 ≤ (i 1).val ∧ (i 1).val < win6_3.index ⟨(i 0).val / 10000, hlt⟩ (1 : Fin 2) * 16 + 16
    rw [e1]; omega

/-- REGION 6: after the region the output array is the host's product of the two input arrays plus the bias row placed
    on every row, of the arrays as the region finds them. -/
theorem region6_array (V : (c : Dev nD) → (b : Ref sig .tc) → Buf (Elt Ideal) ((c : Thread nD τ).loc b)) (c : Dev nD) :
    (dat6 (F := Ideal) V c).arrAt 3 cfg6.N
      = addf (Host.dotGeneral (F := Ideal) (φ₁ := .f32) (φ₂ := .f32) Cert.ReferenceIdeal.dot_S100000x64_S64x16_S100000x16_1_0_0_1_n_n none (V c main_v59) (V c main_arg6))
        (broadcastInDim Cert.ReferenceIdeal.S100000x16 ![0, 1] Cert.ReferenceIdeal.Facts₀.bcast_S1x16_S100000x16_0_1 (V c main_v60)) :=
  (dat6 (F := Ideal) V c).arrAt_eq_of_cover 3 _ (fun t _ => flushed6_eq V c t) cover6

end Cert.KernelIdeal.RegionValue

end
-- ==== Proof.LibRowCast.lean ====
import Idealize.ShloMosaic.Lib.Pipeline.Value
import Idealize.ShloMosaic.Lib.ValueIdx
import Idealize.ShloMosaic.Lib.ValueLayout

/-!
# A vector laid out as a row, two ways

A vector of length `a` becomes a row `[1, a]` either by a reshape or by a broadcast along the row's second axis.
Both rows read, at `(u, i)`, the vector at `i`; so the two rows are one array. This is the step between a program that
reshapes a bias vector before adding it to every row of a table and one that broadcasts it.
-/

namespace Cert.LibRowCast

open Idealize.ShloMosaic Idealize.ShloMosaic.ValueIdx

/-- A vector reshaped to a row is the vector broadcast to a row along the row's second axis. -/
theorem row_cast_eq_bcast {α : Type} {a : ℕ} (b : (⟨1, ![a]⟩ : Shape).Idx → α)
    (h1 : (⟨1, ![a]⟩ : Shape).ShapeCasts ⟨2, ![1, a]⟩)
    (h2 : (⟨1, ![a]⟩ : Shape).BroadcastsInDim ⟨2, ![1, a]⟩ (![1] : Fin 1 → Fin 2)) :
    shapeCast ⟨2, ![1, a]⟩ b h1 = broadcastInDim ⟨2, ![1, a]⟩ ![1] h2 b := by
  funext j
  obtain ⟨u, i, rfl⟩ : ∃ (u : Fin 1) (i : Fin a), j = ix2 u i := ⟨j 0, j 1, eq_ix2 j⟩
  rw [shapeCast_a_1a_apply]
  refine (broadcastInDim_apply ![1] h2 b (ix2 u i) (ix1 i) fun ax => ?_).symm
  match ax with
  | ⟨0, _⟩ =>
    show i.val = if a = 1 then 0 else i.val
    split
    · have := i.isLt; omega
    · rfl

end Cert.LibRowCast
-- ==== Proof.LibColumnCast.lean ====
import proofs.«113802_j19069654794550_2_alg».proof.Proof.LibColumnLayout
import Idealize.ShloMosaic.Lib.ValueIdx
import Idealize.ShloMosaic.Lib.Pipeline.Value

/-!
# A vector laid out as a column, two ways

A vector of length `a` becomes a column `[a, 1]` either by a reshape or by placing it on axis 0 of the column's shape.
Both columns read, at `(p, u)`, the vector at `p`: the reshape because the two entries have the same row-major position
`p`, the placement because axis 0 carries the vector's one coordinate and the unit axis carries none. So the two
columns are one array. This is the step between a program that reshapes a vector of per-row factors to a column
before spreading it along the rows of a table and one that broadcasts it there.
-/

namespace Cert.LibColumnCast

open Idealize.ShloMosaic Idealize.ShloMosaic.ValueIdx

/-- A vector reshaped to a column is the vector placed on axis 0 of the column's shape. -/
theorem column_cast_eq_bcast {α : Type} {a : ℕ} (v : (⟨1, ![a]⟩ : Shape).Idx → α)
    (h1 : (⟨1, ![a]⟩ : Shape).ShapeCasts ⟨2, ![a, 1]⟩)
    (h2 : (⟨1, ![a]⟩ : Shape).BroadcastsInDim ⟨2, ![a, 1]⟩ (![0] : Fin 1 → Fin 2)) :
    shapeCast ⟨2, ![a, 1]⟩ v h1 = broadcastInDim ⟨2, ![a, 1]⟩ ![0] h2 v := by
  funext j
  obtain ⟨p, u, rfl⟩ : ∃ (p : Fin a) (u : Fin 1), j = ix2 p u := ⟨j 0, j 1, eq_ix2 j⟩
  rw [Cert.LibColumnLayout.shapeCast_a_a1_apply, Cert.LibColumnLayout.broadcastInDim_a_a1_apply]

end Cert.LibColumnCast
-- ==== Proof.LibTypedRefCasts.lean ====
/-
  A typed buffer reference carries the type T of the value it holds together with a proof that the buffer's
  own type is T; contents are moved between the two spellings of that one type along the proof. Moving a
  value to the buffer's spelling and back again gives the value: the two moves are transports along a
  proof and along its inverse.
-/
import Idealize.ShloMosaic.Lib.StableHlo.Run

namespace Cert.LibTypedRefCasts

open Idealize.ShloMosaic Idealize.ShloMosaic.StableHlo

variable {sig : RefSig} {Val : EltTy → Type} {T : BufTy}

/-- Contents written at a typed reference and read back through it are unchanged. -/
theorem ofBuf_toBuf (x : TRef sig T) (v : T.Contents Val) : x.ofBuf (x.toBuf v) = v := by
  simp only [TRef.ofBuf, TRef.toBuf, cast_cast, cast_eq]

/-- Contents read through a typed reference and written back through it are unchanged. -/
theorem toBuf_ofBuf (x : TRef sig T) (v : x.ref.ty.Contents Val) : x.toBuf (x.ofBuf v) = v := by
  simp only [TRef.ofBuf, TRef.toBuf, cast_cast, cast_eq]

end Cert.LibTypedRefCasts
-- ==== Proof.KernelStages.lean ====
/-
  The kernel program's buffers, boundary by boundary, as the reference's stages of the argument arrays.

  Both programs compute a two-layer graph convolution. With src and dst the edge list's rows followed by the self
  loops, deg the number of edges into a node, and norm(e) = deg(src e)^(-1/2) · deg(dst e)^(-1/2), a layer sends a table H
  to  Σ_{e : dst e = n} (H · W)(src e, ·) · norm(e) + b  (the first layer then takes the maximum with zero), and the
  result is the second layer's table times the last weight matrix plus the last bias.

  The reference computes this by host operations alone. The kernel program computes the index vectors and the factors
  norm by THE SAME host operations, and between its grid regions gathers rows and sums messages by the same host
  operations too; its regions replace the matrix products, the scaling of the gathered rows and the bias additions.
  Each region's output array is, as a whole array, the host operation it replaces applied to the region's input arrays
  (one whole-array lemma per region). So at every segment boundary the buffer that carries a quantity holds the reference's stage
  for that quantity, as a function of the eight argument arrays: proved here boundary by boundary — a host stretch by
  reading its operations' results off the fold, a region by its whole-array lemma, a reshaped bias row or factor column
  by the fact that reshaping a vector to a row or a column is broadcasting it along the new axis.
-/
import proofs.«113802_j19069654794550_2_alg».proof.Proof.KernelFold
import proofs.«113802_j19069654794550_2_alg».proof.Proof.RefReadP
import proofs.«113802_j19069654794550_2_alg».proof.Proof.ScaleRegion
import proofs.«113802_j19069654794550_2_alg».proof.Proof.ScaleRegion4
import proofs.«113802_j19069654794550_2_alg».proof.Proof.BiasRegions
import proofs.«113802_j19069654794550_2_alg».proof.Proof.MatmulRegion0
import proofs.«113802_j19069654794550_2_alg».proof.Proof.MatmulRegion3
import proofs.«113802_j19069654794550_2_alg».proof.Proof.MatmulRegion6
import proofs.«113802_j19069654794550_2_alg».proof.Proof.LibRowCast
import proofs.«113802_j19069654794550_2_alg».proof.Proof.LibColumnCast
import proofs.«113802_j19069654794550_2_alg».proof.Proof.LibTypedRefCasts

set_option maxRecDepth 16384

noncomputable section

namespace Cert.KernelIdeal.Stages

open Cert.KernelIdeal Cert.KernelIdeal.Gen Cert.KernelIdeal.Fold Cert.KernelIdeal.RegionValue
open Idealize.ShloMosaic Idealize.ShloMosaic.TcCoe Idealize.SL.Sem Idealize.ShloMosaic.StableHlo

/-- Contents read through a typed buffer reference are the contents themselves: the reference's two spellings of
    their type are one type. -/
theorem ofBuf_same {sig : RefSig} {Val : EltTy → Type} {T : BufTy} (x : TRef sig T) (v : x.ref.ty.Contents Val) (w : T.Contents Val)
    (h : HEq v w) : x.ofBuf v = w := eq_of_heq ((cast_heq _ v).trans h)
/-- Contents written through a typed buffer reference are the contents themselves. -/
theorem toBuf_same {sig : RefSig} {Val : EltTy → Type} {T : BufTy} (x : TRef sig T) (v : T.Contents Val) (w : x.ref.ty.Contents Val)
    (h : HEq v w) : x.toBuf v = w := eq_of_heq ((cast_heq _ v).trans h)

variable (m : (ℓ : Loc nD τ sig) → Buf (Elt Ideal) ℓ) (ρ : Dev nD → PrngReg) (c : Dev nD)

/-! ## At the first region's entry: the index vectors and the factors -/

set_option maxHeartbeats 4000000 in
/-- The source index vector: the edge list's first row followed by the self loops. -/
theorem at1_src : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  unfold hostOps0
  after_results_simp
  rfl

set_option maxHeartbeats 4000000 in
/-- The destination index vector: the edge list's second row followed by the self loops. -/
theorem at1_dst : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  unfold hostOps0
  after_results_simp
  rfl

set_option maxHeartbeats 4000000 in
/-- Where a node has an edge into it: its degree is positive. -/
theorem at1_pos : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  unfold hostOps0
  after_results_simp
  rfl

set_option maxHeartbeats 4000000 in
/-- The reciprocal square root of every degree. -/
theorem at1_rsqrt : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  unfold hostOps0
  after_results_simp
  rfl

set_option maxHeartbeats 4000000 in
/-- The zero that stands in where the degree is not positive. -/
theorem at1_zero : W1 m ρ c (Proc.devRef .tc main_cst_2) = Cert.ReferenceIdeal.ReadP.val_main_cst_2 (F := Ideal) := by
  show StableHlo.after hostOps0 (W0 m ρ c) (Proc.devRef .tc main_cst_2) = _
  unfold hostOps0
  after_results_simp
  rfl

set_option maxHeartbeats 4000000 in
/-- The guarded reciprocal square root of the degrees. -/
theorem at2_isqrt : W2 m ρ c (Proc.devRef .tc main_v14) = Cert.ReferenceIdeal.ReadP.val_main_v14 (F := Ideal) (m ((c : Thread nD τ).loc main_arg1)) := by
  show StableHlo.after hostOps0_1 (W1 m ρ c) (Proc.devRef .tc main_v14) = _
  have e1 := at1_pos m ρ c
  have e2 := at1_rsqrt m ρ c
  have e3 := at1_zero m ρ c
  generalize W1 m ρ c = V at e1 e2 e3 ⊢
  unfold hostOps0_1
  after_results_simp
  rw [e1, e2, e3]
  rw [Cert.LibTypedRefCasts.ofBuf_toBuf, Cert.LibTypedRefCasts.ofBuf_toBuf]
  refine toBuf_same _ _ _ (heq_of_eq ?_)
  rw [ofBuf_same _ _ (Cert.ReferenceIdeal.ReadP.val_main_v12 (F := Ideal) (m ((c : Thread nD τ).loc main_arg1))) HEq.rfl,
    ofBuf_same _ _ (Cert.ReferenceIdeal.ReadP.val_main_v13 (F := Ideal) (m ((c : Thread nD τ).loc main_arg1))) HEq.rfl,
    ofBuf_same _ _ (Cert.ReferenceIdeal.ReadP.val_main_cst_2 (F := Ideal)) HEq.rfl]
  rfl

theorem at2_src : W2 m ρ c (Proc.devRef .tc main_v3) = Cert.ReferenceIdeal.ReadP.val_main_v3 (F := Ideal) (m ((c : Thread nD τ).loc main_arg1)) :=
  (keep2 m ρ c main_v3 (by decide)).trans (at1_src m ρ c)
theorem at2_dst : W2 m ρ c (Proc.devRef .tc main_v6) = Cert.ReferenceIdeal.ReadP.val_main_v6 (F := Ideal) (m ((c : Thread nD τ).loc main_arg1)) :=
  (keep2 m ρ c main_v6 (by decide)).trans (at1_dst m ρ c)

theorem at3_src : W3 m ρ c (Proc.devRef .tc main_v3) = Cert.ReferenceIdeal.ReadP.val_main_v3 (F := Ideal) (m ((c : Thread nD τ).loc main_arg1)) :=
  (keep3 m ρ c main_v3 (by decide)).trans (at2_src m ρ c)
theorem at3_dst : W3 m ρ c (Proc.devRef .tc main_v6) = Cert.ReferenceIdeal.ReadP.val_main_v6 (F := Ideal) (m ((c : Thread nD τ).loc main_arg1)) :=
  (keep3 m ρ c main_v6 (by decide)).trans (at2_dst m ρ c)

set_option maxHeartbeats 4000000 in
/-- The factor of every edge: the guarded reciprocal square roots at its two ends, multiplied. -/
theorem at3_norm : W3 m ρ c (Proc.devRef .tc main_v29) = Cert.ReferenceIdeal.ReadP.val_main_v29 (F := Ideal) (m ((c : Thread nD τ).loc main_arg1)) := by
  show StableHlo.after hostOps0_2 (W2 m ρ c) (Proc.devRef .tc main_v29) = _
  have e1 := at2_isqrt m ρ c
  have e2 := at2_src m ρ c
  have e3 := at2_dst m ρ c
  generalize W2 m ρ c = V at e1 e2 e3 ⊢
  unfold hostOps0_2
  after_results_simp
  rw [e1, e2, e3]
  rfl

/-- An argument array is as launched at the first region's entry. -/
theorem at3_arg (r : Ref sig .tc) (h1 : r ∉ hostOps0_produced) (h2 : r ∉ hostOps0_1_produced) (h3 : r ∉ hostOps0_2_produced) :
    W3 m ρ c (Proc.devRef .tc r) = m ((c : Thread nD τ).loc r) := launch_at3 m ρ c r h1 h2 h3

/-! ## The first layer -/

/-- The first product: the node table times the first weight matrix. -/
theorem at4_prod : W4 m ρ c (Proc.devRef .tc main_v30) = Cert.ReferenceIdeal.ReadP.val_main_v30 (F := Ideal) (m ((c : Thread nD τ).loc main_arg0)) (m ((c : Thread nD τ).loc main_arg2)) := by
  refine (W4_arr m ρ c 2).trans ?_
  rw [region0_array (V3 m ρ) c,
    show V3 m ρ c main_arg0 = m ((c : Thread nD τ).loc main_arg0) from at3_arg m ρ c main_arg0 (by decide) (by decide) (by decide),
    show V3 m ρ c main_arg2 = m ((c : Thread nD τ).loc main_arg2) from at3_arg m ρ c main_arg2 (by decide) (by decide) (by decide)]
  rfl

theorem at4_src : W4 m ρ c (Proc.devRef .tc main_v3) = Cert.ReferenceIdeal.ReadP.val_main_v3 (F := Ideal) (m ((c : Thread nD τ).loc main_arg1)) :=
  (keep4 m ρ c main_v3 (by decide)).trans (at3_src m ρ c)
theorem at4_norm : W4 m ρ c (Proc.devRef .tc main_v29) = Cert.ReferenceIdeal.ReadP.val_main_v29 (F := Ideal) (m ((c : Thread nD τ).loc main_arg1)) :=
  (keep4 m ρ c main_v29 (by decide)).trans (at3_norm m ρ c)

set_option maxHeartbeats 4000000 in
/-- The product's rows gathered along the edges' sources. -/
theorem at5_rows : W5 m ρ c (Proc.devRef .tc main_v37) = Cert.ReferenceIdeal.ReadP.val_main_v37 (F := Ideal) (m ((c : Thread nD τ).loc main_arg0)) (m ((c : Thread nD τ).loc main_arg1)) (m ((c : Thread nD τ).loc main_arg2)) := by
  show StableHlo.after hostOps1 (W4 m ρ c) (Proc.devRef .tc main_v37) = _
  unfold hostOps1
  after_results_simp
  rw [at4_prod, at4_src]
  rfl

set_option maxHeartbeats 4000000 in
/-- The factors as a column. -/
theorem at5_col : W5 m ρ c (Proc.devRef .tc main_v38) = Cert.ReferenceIdeal.ReadP.val_main_v38 (F := Ideal) (m ((c : Thread nD τ).loc main_arg1)) := by
  show StableHlo.after hostOps1 (W4 m ρ c) (Proc.devRef .tc main_v38) = _
  unfold hostOps1
  after_results_simp
  rw [at4_norm]
  exact Cert.LibColumnCast.column_cast_eq_bcast _ _ _

/-- The first layer's messages: the gathered rows times the factors. -/
theorem at6_msg : W6 m ρ c (Proc.devRef .tc main_v39) = Cert.ReferenceIdeal.ReadP.val_main_v40 (F := Ideal) (m ((c : Thread nD τ).loc main_arg0)) (m ((c : Thread nD τ).loc main_arg1)) (m ((c : Thread nD τ).loc main_arg2)) := by
  refine (W6_arr m ρ c 2).trans ?_
  rw [region1_array (V5 m ρ) c,
    show V5 m ρ c main_v37 = _ from at5_rows m ρ c,
    show V5 m ρ c main_v38 = _ from at5_col m ρ c]
  rfl

theorem at6_dst : W6 m ρ c (Proc.devRef .tc main_v6) = Cert.ReferenceIdeal.ReadP.val_main_v6 (F := Ideal) (m ((c : Thread nD τ).loc main_arg1)) :=
  (back6 m ρ c main_v6 (by decide) (by decide) (by decide)).trans (at3_dst m ρ c)
theorem at6_arg (r : Ref sig .tc) (h1 : r ∉ hostOps0_produced) (h2 : r ∉ hostOps0_1_produced) (h3 : r ∉ hostOps0_2_produced)
    (h4 : ∀ w, Pipeline.arrRef spec0 w ≠ r) (h5 : r ∉ hostOps1_produced) (h6 : ∀ w, Pipeline.arrRef spec1 w ≠ r) :
    W6 m ρ c (Proc.devRef .tc r) = m ((c : Thread nD τ).loc r) :=
  (back6 m ρ c r h4 h5 h6).trans (at3_arg m ρ c r h1 h2 h3)

set_option maxHeartbeats 4000000 in
/-- The messages summed into their destinations. -/
theorem at7_agg : W7 m ρ c (Proc.devRef .tc main_v42) = Cert.ReferenceIdeal.ReadP.val_main_v43 (F := Ideal) (m ((c : Thread nD τ).loc main_arg0)) (m ((c : Thread nD τ).loc main_arg1)) (m ((c : Thread nD τ).loc main_arg2)) := by
  show StableHlo.after hostOps2 (W6 m ρ c) (Proc.devRef .tc main_v42) = _
  unfold hostOps2
  after_results_simp
  rw [at6_dst, at6_msg]
  rfl

set_option maxHeartbeats 4000000 in
/-- The first bias as a row. -/
theorem at7_bias : W7 m ρ c (Proc.devRef .tc main_v43) = Cert.ReferenceIdeal.ReadP.val_main_v44 (F := Ideal) (m ((c : Thread nD τ).loc main_arg3)) := by
  show StableHlo.after hostOps2 (W6 m ρ c) (Proc.devRef .tc main_v43) = _
  unfold hostOps2
  after_results_simp
  rw [at6_arg m ρ c main_arg3 (by decide) (by decide) (by decide) (by decide) (by decide) (by decide)]
  exact Cert.LibRowCast.row_cast_eq_bcast _ _ _

/-- The first layer's output: the sums plus the bias, cut below at zero. -/
theorem at8_layer : W8 m ρ c (Proc.devRef .tc main_v44) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (W8_arr m ρ c 2).trans ?_
  rw [region2_array (V7 m ρ) c,
    show V7 m ρ c main_v42 = _ from at7_agg m ρ c,
    show V7 m ρ c main_v43 = _ from at7_bias m ρ c]
  rfl

/-! ## The second layer -/

theorem at8_arg (r : Ref sig .tc) (h1 : r ∉ hostOps0_produced) (h2 : r ∉ hostOps0_1_produced) (h3 : r ∉ hostOps0_2_produced)
    (h4 : ∀ w, Pipeline.arrRef spec0 w ≠ r) (h5 : r ∉ hostOps1_produced) (h6 : ∀ w, Pipeline.arrRef spec1 w ≠ r)
    (h7 : r ∉ hostOps2_produced) (h8 : ∀ w, Pipeline.arrRef spec2 w ≠ r) :
    W8 m ρ c (Proc.devRef .tc r) = m ((c : Thread nD τ).loc r) :=
  (back8 m ρ c r h7 h8).trans (at6_arg m ρ c r h1 h2 h3 h4 h5 h6)

/-- The second product: the first layer's output times the second weight matrix. -/
theorem at9_prod : W9 m ρ c (Proc.devRef .tc main_v45) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W9_arr m ρ c 2).trans ?_
  rw [region3_array (V8 m ρ) c,
    show V8 m ρ c main_v44 = _ from at8_layer m ρ c,
    show V8 m ρ c main_arg4 = m ((c : Thread nD τ).loc main_arg4) from at8_arg m ρ c main_arg4 (by decide) (by decide) (by decide) (by decide) (by decide) (by decide) (by decide) (by decide)]
  rfl

/-- A buffer the first region's entry holds and nothing up to the fourth region's exit rewrites. -/
theorem back9 (r : Ref sig .tc) (h4 : ∀ w, Pipeline.arrRef spec0 w ≠ r) (h5 : r ∉ hostOps1_produced) (h6 : ∀ w, Pipeline.arrRef spec1 w ≠ r)
    (h7 : r ∉ hostOps2_produced) (h8 : ∀ w, Pipeline.arrRef spec2 w ≠ r) (h9 : ∀ w, Pipeline.arrRef spec3 w ≠ r) :
    W9 m ρ c (Proc.devRef .tc r) = W3 m ρ c (Proc.devRef .tc r) :=
  (keep9 m ρ c r h9).trans ((back8 m ρ c r h7 h8).trans (back6 m ρ c r h4 h5 h6))

theorem at9_src : W9 m ρ c (Proc.devRef .tc main_v3) = Cert.ReferenceIdeal.ReadP.val_main_v3 (F := Ideal) (m ((c : Thread nD τ).loc main_arg1)) :=
  (back9 m ρ c main_v3 (by decide) (by decide) (by decide) (by decide) (by decide) (by decide)).trans (at3_src m ρ c)
theorem at9_norm : W9 m ρ c (Proc.devRef .tc main_v29) = Cert.ReferenceIdeal.ReadP.val_main_v29 (F := Ideal) (m ((c : Thread nD τ).loc main_arg1)) :=
  (back9 m ρ c main_v29 (by decide) (by decide) (by decide) (by decide) (by decide) (by decide)).trans (at3_norm m ρ c)
theorem at9_dst : W9 m ρ c (Proc.devRef .tc main_v6) = Cert.ReferenceIdeal.ReadP.val_main_v6 (F := Ideal) (m ((c : Thread nD τ).loc main_arg1)) :=
  (back9 m ρ c main_v6 (by decide) (by decide) (by decide) (by decide) (by decide) (by decide)).trans (at3_dst m ρ c)
theorem at9_arg (r : Ref sig .tc) (h1 : r ∉ hostOps0_produced) (h2 : r ∉ hostOps0_1_produced) (h3 : r ∉ hostOps0_2_produced)
    (h4 : ∀ w, Pipeline.arrRef spec0 w ≠ r) (h5 : r ∉ hostOps1_produced) (h6 : ∀ w, Pipeline.arrRef spec1 w ≠ r)
    (h7 : r ∉ hostOps2_produced) (h8 : ∀ w, Pipeline.arrRef spec2 w ≠ r) (h9 : ∀ w, Pipeline.arrRef spec3 w ≠ r) :
    W9 m ρ c (Proc.devRef .tc r) = m ((c : Thread nD τ).loc r) :=
  (back9 m ρ c r h4 h5 h6 h7 h8 h9).trans (at3_arg m ρ c r h1 h2 h3)

set_option maxHeartbeats 4000000 in
/-- The second product's rows gathered along the edges' sources. -/
theorem at10_rows : W10 m ρ c (Proc.devRef .tc main_v52) = Cert.ReferenceIdeal.ReadP.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps4 (W9 m ρ c) (Proc.devRef .tc main_v52) = _
  unfold hostOps4
  after_results_simp
  rw [at9_prod, at9_src]
  rfl

set_option maxHeartbeats 4000000 in
/-- The factors as a column, again. -/
theorem at10_col : W10 m ρ c (Proc.devRef .tc main_v53) = Cert.ReferenceIdeal.ReadP.val_main_v56 (F := Ideal) (m ((c : Thread nD τ).loc main_arg1)) := by
  show StableHlo.after hostOps4 (W9 m ρ c) (Proc.devRef .tc main_v53) = _
  unfold hostOps4
  after_results_simp
  rw [at9_norm]
  exact Cert.LibColumnCast.column_cast_eq_bcast _ _ _

/-- The second layer's messages. -/
theorem at11_msg : W11 m ρ c (Proc.devRef .tc main_v54) = Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W11_arr m ρ c 2).trans ?_
  rw [region4_array (V10 m ρ) c,
    show V10 m ρ c main_v52 = _ from at10_rows m ρ c,
    show V10 m ρ c main_v53 = _ from at10_col m ρ c]
  rfl

theorem at11_dst : W11 m ρ c (Proc.devRef .tc main_v6) = Cert.ReferenceIdeal.ReadP.val_main_v6 (F := Ideal) (m ((c : Thread nD τ).loc main_arg1)) :=
  (back11 m ρ c main_v6 (by decide) (by decide)).trans (at9_dst m ρ c)
theorem at11_arg (r : Ref sig .tc) (h1 : r ∉ hostOps0_produced) (h2 : r ∉ hostOps0_1_produced) (h3 : r ∉ hostOps0_2_produced)
    (h4 : ∀ w, Pipeline.arrRef spec0 w ≠ r) (h5 : r ∉ hostOps1_produced) (h6 : ∀ w, Pipeline.arrRef spec1 w ≠ r)
    (h7 : r ∉ hostOps2_produced) (h8 : ∀ w, Pipeline.arrRef spec2 w ≠ r) (h9 : ∀ w, Pipeline.arrRef spec3 w ≠ r)
    (h10 : r ∉ hostOps4_produced) (h11 : ∀ w, Pipeline.arrRef spec4 w ≠ r) :
    W11 m ρ c (Proc.devRef .tc r) = m ((c : Thread nD τ).loc r) :=
  (back11 m ρ c r h10 h11).trans (at9_arg m ρ c r h1 h2 h3 h4 h5 h6 h7 h8 h9)

set_option maxHeartbeats 4000000 in
/-- The second layer's messages summed into their destinations. -/
theorem at12_agg : W12 m ρ c (Proc.devRef .tc main_v57) = Cert.ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps5 (W11 m ρ c) (Proc.devRef .tc main_v57) = _
  unfold hostOps5
  after_results_simp
  rw [at11_dst, at11_msg]
  rfl

set_option maxHeartbeats 4000000 in
/-- The second bias as a row. -/
theorem at12_bias : W12 m ρ c (Proc.devRef .tc main_v58) = Cert.ReferenceIdeal.ReadP.val_main_v62 (F := Ideal) (m ((c : Thread nD τ).loc main_arg5)) := by
  show StableHlo.after hostOps5 (W11 m ρ c) (Proc.devRef .tc main_v58) = _
  unfold hostOps5
  after_results_simp
  rw [at11_arg m ρ c main_arg5 (by decide) (by decide) (by decide) (by decide) (by decide) (by decide) (by decide) (by decide) (by decide) (by decide) (by decide)]
  exact Cert.LibRowCast.row_cast_eq_bcast _ _ _

/-- The second layer's output: the sums plus the bias. -/
theorem at13_layer : W13 m ρ c (Proc.devRef .tc main_v59) = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W13_arr m ρ c 2).trans ?_
  rw [region5_array (V12 m ρ) c,
    show V12 m ρ c main_v57 = _ from at12_agg m ρ c,
    show V12 m ρ c main_v58 = _ from at12_bias m ρ c]
  rfl

/-! ## The classifier -/

theorem at13_arg (r : Ref sig .tc) (h1 : r ∉ hostOps0_produced) (h2 : r ∉ hostOps0_1_produced) (h3 : r ∉ hostOps0_2_produced)
    (h4 : ∀ w, Pipeline.arrRef spec0 w ≠ r) (h5 : r ∉ hostOps1_produced) (h6 : ∀ w, Pipeline.arrRef spec1 w ≠ r)
    (h7 : r ∉ hostOps2_produced) (h8 : ∀ w, Pipeline.arrRef spec2 w ≠ r) (h9 : ∀ w, Pipeline.arrRef spec3 w ≠ r)
    (h10 : r ∉ hostOps4_produced) (h11 : ∀ w, Pipeline.arrRef spec4 w ≠ r)
    (h12 : r ∉ hostOps5_produced) (h13 : ∀ w, Pipeline.arrRef spec5 w ≠ r) :
    W13 m ρ c (Proc.devRef .tc r) = m ((c : Thread nD τ).loc r) :=
  (back13 m ρ c r h12 h13).trans (at11_arg m ρ c r h1 h2 h3 h4 h5 h6 h7 h8 h9 h10 h11)

set_option maxHeartbeats 4000000 in
/-- The last bias as a row. -/
theorem at14_bias : W14 m ρ c (Proc.devRef .tc main_v60) = Cert.ReferenceIdeal.ReadP.val_main_v66 (F := Ideal) (m ((c : Thread nD τ).loc main_arg7)) := by
  show StableHlo.after hostOps6 (W13 m ρ c) (Proc.devRef .tc main_v60) = _
  unfold hostOps6
  after_results_simp
  rw [at13_arg m ρ c main_arg7 (by decide) (by decide) (by decide) (by decide) (by decide) (by decide) (by decide) (by decide) (by decide) (by decide) (by decide) (by decide) (by decide)]
  exact Cert.LibRowCast.row_cast_eq_bcast _ _ _

theorem at14_layer : W14 m ρ c (Proc.devRef .tc main_v59) = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (keep14 m ρ c main_v59 (by decide)).trans (at13_layer m ρ c)
theorem at14_weights : W14 m ρ c (Proc.devRef .tc main_arg6) = m ((c : Thread nD τ).loc main_arg6) :=
  (keep14 m ρ c main_arg6 (by decide)).trans (at13_arg m ρ c main_arg6 (by decide) (by decide) (by decide) (by decide) (by decide) (by decide) (by decide) (by decide) (by decide) (by decide) (by decide) (by decide) (by decide))

/-- THE RESULT: the second layer's output times the last weight matrix, plus the last bias — the reference's final
    stage of the eight argument arrays. -/
theorem kernel_result : W15 m ρ c (Proc.devRef .tc main_v61) = Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W15_arr m ρ c 3).trans ?_
  rw [region6_array (V14 m ρ) c,
    show V14 m ρ c main_v59 = _ from at14_layer m ρ c,
    show V14 m ρ c main_arg6 = m ((c : Thread nD τ).loc main_arg6) from at14_weights m ρ c,
    show V14 m ρ c main_v60 = _ from at14_bias m ρ c]
  rfl

end Cert.KernelIdeal.Stages

end
-- ==== Proof.lean ====
/-
  The kernel and its reference compute one function: a two-layer graph convolution with a linear classifier.

  With src and dst the edge list's two rows followed by one self loop per node, deg(n) the number of edges into n, and
  norm(e) = deg(src e)^(-1/2) · deg(dst e)^(-1/2) (zero where a degree is not positive), a layer sends a node table H to
  the table whose row n is  Σ_{e : dst e = n} (H · W)(src e, ·) · norm(e) + b;  the first layer's output is cut below
  at zero, and the result is the second layer's output times the classifier's matrix plus its bias.

  The reference computes this by host operations alone. The kernel program keeps the host operations that compute the
  index vectors, the factors, the gathers along the sources and the sums into the destinations, and replaces the three
  matrix products, the two scalings of gathered rows and the two bias additions by seven grid regions that process
  blocks of rows. Over the extended reals each region's output array is, as a whole array, the host operation it
  replaces applied to the region's input arrays: a block's rows are the table's rows, a product's entry is the same sum
  of products whatever the blocking and the rounding of its operands' format, and the blocks tile the table. A bias
  row or factor column that the kernel program reshapes and the reference broadcasts is the same array. So the
  kernel program's buffers hold, segment boundary by segment boundary, the reference's stages of the eight argument
  arrays, and its result is the reference's result. No step uses that the inputs are finite: every operation is the
  same operation of the same operands on both sides, and the only law used is that a sum does not depend on how it is
  blocked.

  The frames of the two printed kernel programs are their generated frames; the reference's frame is its run with the
  result dropped; the idealization rewrote no operation, so there is nothing to preserve.
-/
import proofs.«113802_j19069654794550_2_alg».proof.Defs
import proofs.«113802_j19069654794550_2_alg».proof.Proof.Assembly
import proofs.«113802_j19069654794550_2_alg».proof.Proof.KernelStages
import proofs.«113802_j19069654794550_2_alg».proof.Proof.Gen.Kernel
import proofs.«113802_j19069654794550_2_alg».proof.Proof.Gen.Kernel.Skeleton
import proofs.«113802_j19069654794550_2_alg».proof.Proof.Gen.Kernel.Launch
import proofs.«113802_j19069654794550_2_alg».proof.Proof.Gen.Kernel.Points
import proofs.«113802_j19069654794550_2_alg».proof.Proof.Gen.Kernel.Frame
import proofs.«113802_j19069654794550_2_alg».proof.Proof.Gen.KernelIdeal
import proofs.«113802_j19069654794550_2_alg».proof.Proof.Gen.KernelIdeal.Skeleton
import proofs.«113802_j19069654794550_2_alg».proof.Proof.Gen.KernelIdeal.Launch
import proofs.«113802_j19069654794550_2_alg».proof.Proof.Gen.KernelIdeal.Points
import proofs.«113802_j19069654794550_2_alg».proof.Proof.Gen.KernelIdeal.Frame
import proofs.«113802_j19069654794550_2_alg».proof.Proof.Gen.ReferenceIdeal
import proofs.«113802_j19069654794550_2_alg».proof.Proof.Gen.Pre_finite_inputs
import Idealize.ShloMosaic.Adequacy
import Idealize.ShloMosaic.Init

noncomputable section

namespace Cert.Proof

open Idealize.ShloMosaic Idealize.SL.Sem

/-- The five claims: the three frames, the empty ledger, and the equality of the two idealized programs' results. -/
theorem claim : Cert.Claim :=
  ⟨Cert.Kernel.Gen.facts, Cert.KernelIdeal.Gen.facts, Cert.ReferenceIdeal.Gen.facts, Cert.Pre_finite_inputs.Gen.facts,
    Assembly.frame_k, Assembly.frame_ki, Assembly.frame_ri, Assembly.preserves,
    Assembly.algebraic_of fun m ρ c => Cert.KernelIdeal.Stages.kernel_result m ρ c⟩

end Cert.Proof

end
